-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x512 : Shape := ⟨3, ![32, 2048, 512]⟩
abbrev S32x2048 : Shape := ⟨2, ![32, 2048]⟩
abbrev S2048x512 : Shape := ⟨2, ![2048, 512]⟩
abbrev S_ : Shape := ⟨0, ![]⟩

class Facts : Prop where
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S32x2048x512 .f32) (main_arg1 : IVec S32x2048 1) (main_arg2 : FVec F S2048x512 .f32) : IVec S_ 1 :=
  let main_v0 : FVec F S32x2048x512 .f32 := Host.absf main_arg0
  let main_cst : FVec F S_ .f32 := constant S_ .f32 0x7F800000#32
  let main_v1 : FVec F S32x2048x512 .f32 := broadcastInDim S32x2048x512 ![] bcast_S_S32x2048x512 main_cst
  let main_v2 : IVec S32x2048x512 1 := cmpf .olt main_v0 main_v1
  let main_c : IVec S_ 1 := constantI S_ 1 1#1
  let main_v3 : IVec S_ 1 := (fun x v => Host.reduce IntOp.andi x v reducesTo_S32x2048x512_S_d0_1_2 h_S_) main_v2 main_c
  let main_v4 : FVec F S2048x512 .f32 := Host.absf main_arg2
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  main_v8
-- ==== Kernel.lean ====
abbrev S32x2048x512 : Shape := ⟨3, ![32, 2048, 512]⟩
abbrev S32x2048 : Shape := ⟨2, ![32, 2048]⟩
abbrev S2048x512 : Shape := ⟨2, ![2048, 512]⟩
abbrev S_ : Shape := ⟨0, ![]⟩
abbrev S32x4x512 : Shape := ⟨3, ![32, 4, 512]⟩
abbrev S32x4x1 : Shape := ⟨3, ![32, 4, 1]⟩
abbrev S32x4 : Shape := ⟨2, ![32, 4]⟩
abbrev S32x2048x1 : Shape := ⟨3, ![32, 2048, 1]⟩
abbrev S1x512x512 : Shape := ⟨3, ![1, 512, 512]⟩
abbrev S1x512x1 : Shape := ⟨3, ![1, 512, 1]⟩
abbrev S512x512 : Shape := ⟨2, ![512, 512]⟩
abbrev S1x1 : Shape := ⟨2, ![1, 1]⟩
abbrev S512x1 : Shape := ⟨2, ![512, 1]⟩

abbrev nBuf : Space → Nat
  | .hbm => 52
  | .vmem => 10
  | .smem => 1
  | _ => 0

abbrev bufTy : (tb : Table) → Fin (tcTables nBuf tb) → BufTy
  | .hbm, ⟨0, _⟩ => ⟨S32x2048x512, .f32⟩
  | .hbm, ⟨1, _⟩ => ⟨S32x2048, .i1⟩
  | .hbm, ⟨2, _⟩ => ⟨S2048x512, .f32⟩
  | .hbm, ⟨3, _⟩ => ⟨S32x2048, .i32⟩
  | .hbm, ⟨4, _⟩ => ⟨S_, .i32⟩
  | .hbm, ⟨5, _⟩ => ⟨S_, .i32⟩
  | .hbm, ⟨6, _⟩ => ⟨S32x2048, .i32⟩
  | .hbm, ⟨7, _⟩ => ⟨S_, .i32⟩
  | .hbm, ⟨8, _⟩ => ⟨S32x2048, .i32⟩
  | .hbm, ⟨9, _⟩ => ⟨S32x2048, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S32x2048, .i32⟩
  | .hbm, ⟨14, _⟩ => ⟨S32x2048, .i32⟩
  | .hbm, ⟨15, _⟩ => ⟨S_, .i32⟩
  | .hbm, ⟨16, _⟩ => ⟨S32x2048, .i32⟩
  | .hbm, ⟨17, _⟩ => ⟨S32x2048, .i32⟩
  | .hbm, ⟨18, _⟩ => ⟨S32x4x512, .i32⟩
  | .hbm, ⟨19, _⟩ => ⟨S32x4x1, .i32⟩
  | .hbm, ⟨20, _⟩ => ⟨S32x4, .i32⟩
  | .hbm, ⟨21, _⟩ => ⟨S_, .i32⟩
  | .hbm, ⟨22, _⟩ => ⟨S_, .i32⟩
  | .hbm, ⟨23, _⟩ => ⟨S32x4, .i32⟩
  | .hbm, ⟨24, _⟩ => ⟨S32x4, .i32⟩
  | .hbm, ⟨25, _⟩ => ⟨S32x4, .i32⟩
  | .hbm, ⟨26, _⟩ => ⟨S_, .i32⟩
  | .hbm, ⟨27, _⟩ => ⟨S32x4, .i32⟩
  | .hbm, ⟨28, _⟩ => ⟨S32x4, .i1⟩
  | .hbm, ⟨29, _⟩ => ⟨S32x4, .i32⟩
  | .hbm, ⟨30, _⟩ => ⟨S32x4, .i32⟩
  | .hbm, ⟨31, _⟩ => ⟨S_, .i32⟩
  | .hbm, ⟨32, _⟩ => ⟨S32x4, .i32⟩
  | .hbm, ⟨33, _⟩ => ⟨S32x4, .i1⟩
  | .hbm, ⟨34, _⟩ => ⟨S32x4, .i1⟩
  | .hbm, ⟨35, _⟩ => ⟨S_, .i32⟩
  | .hbm, ⟨36, _⟩ => ⟨S32x4, .i32⟩
  | .hbm, ⟨37, _⟩ => ⟨S32x4, .i32⟩
  | .hbm, ⟨38, _⟩ => ⟨S32x4x1, .i32⟩
  | .hbm, ⟨39, _⟩ => ⟨S_, .i32⟩
  | .hbm, ⟨40, _⟩ => ⟨S32x4x1, .i32⟩
  | .hbm, ⟨41, _⟩ => ⟨S32x4x1, .i32⟩
  | .hbm, ⟨42, _⟩ => ⟨S32x4x512, .i32⟩
  | .hbm, ⟨43, _⟩ => ⟨S32x4x512, .i32⟩
  | .hbm, ⟨44, _⟩ => ⟨S32x4x512, .i1⟩
  | .hbm, ⟨45, _⟩ => ⟨S_, .i32⟩
  | .hbm, ⟨46, _⟩ => ⟨S_, .i32⟩
  | .hbm, ⟨47, _⟩ => ⟨S32x4x512, .i32⟩
  | .hbm, ⟨48, _⟩ => ⟨S32x4x512, .i32⟩
  | .hbm, ⟨49, _⟩ => ⟨S32x2048x1, .i32⟩
  | .hbm, ⟨50, _⟩ => ⟨S2048x512, .bf16⟩
  | .hbm, ⟨51, _⟩ => ⟨S32x2048x512, .f32⟩
  | .local _ .vmem, ⟨0, _⟩ => ⟨S1x512x512, .f32⟩
  | .local _ .vmem, ⟨1, _⟩ => ⟨S1x512x512, .f32⟩
  | .local _ .vmem, ⟨2, _⟩ => ⟨S1x512x1, .i32⟩
  | .local _ .vmem, ⟨3, _⟩ => ⟨S1x512x1, .i32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x512x512, .f32⟩
  | .local _ .vmem, ⟨9, _⟩ => ⟨S1x512x512, .f32⟩
  | .local _ .smem, ⟨0, _⟩ => ⟨S32x4, .i32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_call0_c : Ref sig .tc := ⟨.hbm, 4, rfl⟩
abbrev main_call0_call0_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_c_1 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_2 : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_call2_v5 : Ref sig .tc := ⟨.hbm, 27, rfl⟩
abbrev main_call2_v6 : Ref sig .tc := ⟨.hbm, 28, rfl⟩
abbrev main_call2_v7 : Ref sig .tc := ⟨.hbm, 29, rfl⟩
abbrev main_call2_v8 : Ref sig .tc := ⟨.hbm, 30, rfl⟩
abbrev main_call2_c : Ref sig .tc := ⟨.hbm, 31, rfl⟩
abbrev main_call2_v9 : Ref sig .tc := ⟨.hbm, 32, rfl⟩
abbrev main_call2_v10 : Ref sig .tc := ⟨.hbm, 33, rfl⟩
abbrev main_call2_v11 : Ref sig .tc := ⟨.hbm, 34, rfl⟩
abbrev main_call2_c_0 : Ref sig .tc := ⟨.hbm, 35, rfl⟩
abbrev main_call2_v12 : Ref sig .tc := ⟨.hbm, 36, rfl⟩
abbrev main_call2_v13 : Ref sig .tc := ⟨.hbm, 37, rfl⟩
abbrev main_v9 : Ref sig .tc := ⟨.hbm, 38, rfl⟩
abbrev main_c_3 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_c_4 : Ref sig .tc := ⟨.hbm, 45, rfl⟩
abbrev main_call3_v0 : Ref sig .tc := ⟨.hbm, 46, rfl⟩
abbrev main_call3_v1 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v8 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

abbrev pre0 : Pipeline.Prefetch sig := ⟨1, ![main_v8.idx], fun | 0 => main_v8.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let arg1 : BitVec 32 := BitVec.ofNat 32 (i 1).val
  let v1 : Index := Scalar.indexCast arg1
  ![v0.toNat, v1.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (k0_off1_inb : ∀ i : grid0.Coords, ∀ a, (k0_off1 i) a + S1x1.size a ≤ S32x4.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 0 (Rect.unit (s := S32x4) ![v0.toNat, v1.toNat] S1x1.size (k0_off1_inb i)) numel1_S1x1
  let c0_i32 : BitVec 32 := 0#32
  let c0_i32_0 : BitVec 32 := 0#32
  ![v2.toNat, c0_i32.toNat]

def cc0_transform_3 (k0_off1_inb : ∀ i : grid0.Coords, ∀ a, (k0_off1 i) a + S1x1.size a ≤ S32x4.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 0 (Rect.unit (s := S32x4) ![v0.toNat, v1.toNat] S1x1.size (k0_off1_inb i)) numel1_S1x1
  let c1_i32 : BitVec 32 := 1#32
  let v3 : BitVec 32 := Scalar.addi v2 c1_i32
  let c3_i32 : BitVec 32 := 3#32
  let v4 : BitVec 32 := Scalar.minsi v3 c3_i32
  let c0_i32 : BitVec 32 := 0#32
  let c0_i32_0 : BitVec 32 := 0#32
  ![v4.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  natLt_1_32 : 1 < 32
  bcast_S_S_ : S_.BroadcastsInDim S_ (![] : Fin 0 → Fin S_.rank)
  reduceWindows_S32x2048_S32x2048_w1s1p0_0_w2048s1p2047_0 : S32x2048.ReduceWindows (![1, 2048] : Fin 2 → Nat) ![1, 1] ![0, 2047] ![0, 0] S32x2048
  h_S_ : 0 < S_.numel
  bcast_S_S32x2048 : S_.BroadcastsInDim S32x2048 (![] : Fin 0 → Fin S32x2048.rank)
  shapeCasts_S32x2048_S32x4x512 : S32x2048.ShapeCasts S32x4x512
  slices_S32x4x512_S32x4x1_0_0_0 : S32x4x512.Slices ![0, 0, 0] S32x4x1
  shapeCasts_S32x4x1_S32x4 : S32x4x1.ShapeCasts S32x4
  bcast_S_S32x4 : S_.BroadcastsInDim S32x4 (![] : Fin 0 → Fin S32x4.rank)
  bcast_S32x4_S32x4x1_0_1 : S32x4.BroadcastsInDim S32x4x1 (![0, 1] : Fin 2 → Fin S32x4x1.rank)
  bcast_S_S32x4x1 : S_.BroadcastsInDim S32x4x1 (![] : Fin 0 → Fin S32x4x1.rank)
  bcast_S32x4x1_S32x4x512_0_1_2 : S32x4x1.BroadcastsInDim S32x4x512 (![0, 1, 2] : Fin 3 → Fin S32x4x512.rank)
  bcast_S_S32x4x512 : S_.BroadcastsInDim S32x4x512 (![] : Fin 0 → Fin S32x4x512.rank)
  shapeCasts_S32x4x512_S32x2048x1 : S32x4x512.ShapeCasts S32x2048x1
  bitsLt_bf16_f32 : FTy.bits .bf16 < FTy.bits .f32
  numel1_S1x1 : S1x1.numel = 1
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  iota_S512x512_d1_w32 : S512x512.Iotas .tc 32 [1]
  broadcasts_S512x1_S512x512 : S512x1.Broadcasts S512x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  dot_S512x512_S512x512_S512x512_1_0_0_1_n_n_wf : DotDims.WF S512x512 S512x512 S512x512 [1] [0] [0] [1] [] []
  hrank0 : 0 < grid0.rank
  k0_off1_inb : ∀ i : grid0.Coords, ∀ a, (k0_off1 i) a + S1x1.size a ≤ S32x4.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S32x2048x512.size a
  hwx0_0 : ∀ i : grid0.Coords, EltTy.bits .f32 = 32 ∨ (Rect.block (s := S32x2048x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1.size a ≤ S32x2048x1.size a
  hwx0_1 : ∀ i : grid0.Coords, EltTy.bits .i32 = 32 ∨ (Rect.block (s := S32x2048x1) S1x512x1.size (cc0_transform_1 i) (hinb0_1 i)).WholeWords (EltTy.packing .i32)
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1x1 pf i = cc0_transform_2 k0_off1_inb numel1_S1x1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1x1 pf i = cc0_transform_3 k0_off1_inb numel1_S1x1 pf i'
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x512.size a ≤ S32x2048x512.size a
  hwx0_4 : ∀ i : grid0.Coords, EltTy.bits .f32 = 32 ∨ (Rect.block (s := S32x2048x512) S1x512x512.size (cc0_transform_4 i) (hinb0_4 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev spec0_0 : Pipeline.WinSpec sig grid0.rank :=
  Pipeline.WinSpec.ofSpec (Memref.whole main_arg0) S1x512x512.size reads0_0 false false 2 stage0_0 sem0_0 nbuf0_0 hstage0_0

abbrev spec0_1 : Pipeline.WinSpec sig grid0.rank :=
  Pipeline.WinSpec.ofSpec (Memref.whole main_v16) S1x512x1.size reads0_1 false false 2 stage0_1 sem0_1 nbuf0_1 hstage0_1

abbrev spec0_2 : Pipeline.WinSpec sig grid0.rank :=
  Pipeline.WinSpec.ofSpec (Memref.whole main_v17) S512x512.size reads0_2 false false 2 stage0_2 sem0_2 nbuf0_2 hstage0_2

abbrev spec0_3 : Pipeline.WinSpec sig grid0.rank :=
  Pipeline.WinSpec.ofSpec (Memref.whole main_v17) S512x512.size reads0_3 false false 2 stage0_3 sem0_3 nbuf0_3 hstage0_3

abbrev spec0_4 : Pipeline.WinSpec sig grid0.rank :=
  Pipeline.WinSpec.ofSpec (Memref.whole main_v18) S1x512x512.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 | 1 => cc0_transform_1 | 2 => cc0_transform_2 k0_off1_inb numel1_S1x1 pf | 3 => cc0_transform_3 k0_off1_inb numel1_S1x1 pf | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 pf | 3 => hreads0_3 pf | 4 => hreads0_4 | ⟨_ + 5, h⟩ => absurd h (Nat.not_lt.2 (Nat.le_add_left _ _))
def ok0 (pf : pre0.Contents (Elt F)) : Prop :=
  (∀ i : grid0.Coords, ∃ h : (∀ a, (cc0_transform_2 k0_off1_inb numel1_S1x1 pf i a + 1) * S512x512.size a ≤ S2048x512.size a), EltTy.bits .bf16 = 32 ∨ (Rect.block (s := S2048x512) S512x512.size (cc0_transform_2 k0_off1_inb numel1_S1x1 pf i) h).WholeWords (EltTy.packing .bf16)) ∧
  (∀ i : grid0.Coords, ∃ h : (∀ a, (cc0_transform_3 k0_off1_inb numel1_S1x1 pf i a + 1) * S512x512.size a ≤ S2048x512.size a), EltTy.bits .bf16 = 32 ∨ (Rect.block (s := S2048x512) S512x512.size (cc0_transform_3 k0_off1_inb numel1_S1x1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => hinb0_1 | 2 => fun i a => (hok.1 i).elim fun h _ => h a | 3 => fun i a => (hok.2 i).elim fun h _ => h a | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => hwx0_1 | 2 => fun i => (hok.1 i).elim fun _ h => h | 3 => fun i => (hok.2 i).elim fun _ h => h | 4 => hwx0_4 | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S32x2048x512 : Shape := ⟨3, ![32, 2048, 512]⟩
abbrev S32x2048 : Shape := ⟨2, ![32, 2048]⟩
abbrev S2048x512 : Shape := ⟨2, ![2048, 512]⟩
abbrev S_ : Shape := ⟨0, ![]⟩
abbrev S32x2048x1 : Shape := ⟨3, ![32, 2048, 1]⟩

abbrev nBuf : Space → Nat
  | .hbm => 33
  | .vmem => 0
  | .smem => 0
  | _ => 0

abbrev bufTy : (tb : Table) → Fin (tcTables nBuf tb) → BufTy
  | .hbm, ⟨0, _⟩ => ⟨S32x2048x512, .f32⟩
  | .hbm, ⟨1, _⟩ => ⟨S32x2048, .i1⟩
  | .hbm, ⟨2, _⟩ => ⟨S2048x512, .f32⟩
  | .hbm, ⟨3, _⟩ => ⟨S32x2048, .i32⟩
  | .hbm, ⟨4, _⟩ => ⟨S_, .i32⟩
  | .hbm, ⟨5, _⟩ => ⟨S_, .i32⟩
  | .hbm, ⟨6, _⟩ => ⟨S32x2048, .i32⟩
  | .hbm, ⟨7, _⟩ => ⟨S_, .i32⟩
  | .hbm, ⟨8, _⟩ => ⟨S32x2048, .i32⟩
  | .hbm, ⟨9, _⟩ => ⟨S32x2048, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S32x2048, .i32⟩
  | .hbm, ⟨14, _⟩ => ⟨S32x2048, .i32⟩
  | .hbm, ⟨15, _⟩ => ⟨S_, .i32⟩
  | .hbm, ⟨16, _⟩ => ⟨S32x2048, .i32⟩
  | .hbm, ⟨17, _⟩ => ⟨S32x2048, .i32⟩
  | .hbm, ⟨18, _⟩ => ⟨S_, .i32⟩
  | .hbm, ⟨19, _⟩ => ⟨S32x2048, .i32⟩
  | .hbm, ⟨20, _⟩ => ⟨S32x2048, .i1⟩
  | .hbm, ⟨21, _⟩ => ⟨S_, .i32⟩
  | .hbm, ⟨22, _⟩ => ⟨S32x2048, .i32⟩
  | .hbm, ⟨23, _⟩ => ⟨S32x2048, .i32⟩
  | .hbm, ⟨24, _⟩ => ⟨S32x2048, .i32⟩
  | .hbm, ⟨25, _⟩ => ⟨S32x2048x1, .i32⟩
  | .hbm, ⟨26, _⟩ => ⟨S32x2048x512, .f32⟩
  | .hbm, ⟨27, _⟩ => ⟨S32x2048x1, .i1⟩
  | .hbm, ⟨28, _⟩ => ⟨S_, .f32⟩
  | .hbm, ⟨29, _⟩ => ⟨S32x2048x512, .i1⟩
  | .hbm, ⟨30, _⟩ => ⟨S32x2048x512, .f32⟩
  | .hbm, ⟨31, _⟩ => ⟨S32x2048x512, .f32⟩
  | .hbm, ⟨32, _⟩ => ⟨S32x2048x512, .f32⟩
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_call0_c : Ref sig .tc := ⟨.hbm, 4, rfl⟩
abbrev main_call0_call0_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_c_1 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v4 : Ref sig .tc := ⟨.hbm, 17, rfl⟩
abbrev main_c_2 : Ref sig .tc := ⟨.hbm, 18, rfl⟩
abbrev main_v5 : Ref sig .tc := ⟨.hbm, 19, rfl⟩
abbrev main_v6 : Ref sig .tc := ⟨.hbm, 20, rfl⟩
abbrev main_c_3 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_call2_v0 : Ref sig .tc := ⟨.hbm, 29, rfl⟩
abbrev main_call2_v1 : Ref sig .tc := ⟨.hbm, 30, rfl⟩
abbrev main_v13 : Ref sig .tc := ⟨.hbm, 31, rfl⟩
abbrev main_v14 : Ref sig .tc := ⟨.hbm, 32, rfl⟩

abbrev nD : Nat := 1
abbrev τ : Topo := Topo.v7x

variable {F : FTy → Type} [FloatOps F]

class Facts₀ : Prop where
  natLt_1_32 : 1 < 32
  bcast_S_S_ : S_.BroadcastsInDim S_ (![] : Fin 0 → Fin S_.rank)
  reduceWindows_S32x2048_S32x2048_w1s1p0_0_w2048s1p2047_0 : S32x2048.ReduceWindows (![1, 2048] : Fin 2 → Nat) ![1, 1] ![0, 2047] ![0, 0] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x512_0_1_2 : S32x2048x1.BroadcastsInDim S32x2048x512 (![0, 1, 2] : Fin 3 → Fin S32x2048x512.rank)
  bcast_S_S32x2048x512 : S_.BroadcastsInDim S32x2048x512 (![] : Fin 0 → Fin S32x2048x512.rank)
  gather_S2048x512_S32x2048x1_S32x2048x512_2_0_n_n_0_2_1512_wf : GatherDims.WF S2048x512 S32x2048x1 S32x2048x512 [2] [0] [] [0] [] 2 ![1, 512]

variable [Facts₀]

def gather_S2048x512_S32x2048x1_S32x2048x512_2_0_n_n_0_2_1512 : GatherDims S2048x512 S32x2048x1 S32x2048x512 where
  offsetDims := [2]
  collapsedSliceDims := [0]
  operandBatchingDims := []
  startIndicesBatchingDims := []
  startIndexMap := [0]
  indexVectorDim := 2
  sliceSizes := ![1, 512]
  wf := gather_S2048x512_S32x2048x1_S32x2048x512_2_0_n_n_0_2_1512_wf

class Facts : Prop extends Facts₀ where

variable [Facts]
-- ==== Proof.KBody.lean ====
/-
  One grid point of the kernel. The grid has 32 x 4 points; at point (b, s) the body is handed five staging
  buffers: rows 512 s ... 512 s + 511 of sequence b (a [1, 512, 512] block), the same rows of the relative-rank
  column (a [1, 512, 1] block of integer words), two [512, 512] blocks of the table chosen by the prefetched word
  k(b, s) — block k and block min(k + 1, 3) — and the output block. It loads the four inputs whole, computes one
  value from them, and stores it over the whole output block. Nothing else is touched, nothing is kept between points.
  Everything here is stated for ANY admissible contents `a` of the prefetched table and ANY contents `V` of the
  buffers at the region's entry, so that no fact below depends on what the host computed before the region.
-/
import proofs.«129515_j39041252721255_2_alg».proof.Proof.Gen.Kernel.Launch
import proofs.«129515_j39041252721255_2_alg».proof.Proof.Gen.Kernel.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (a : (pcfg0 (F := F)).Adm)
  (V : (c : Dev nD) → (b : Ref sig .tc) → Buf (Elt F) ((c : Thread nD τ).loc b))

/-- The pipeline at the table contents `a`. -/
abbrev cfgA : Pipeline.Cfg sig Λ₀ := cfg0 a

/-! ## The windows' blocks -/

/-- Window `w`'s block at point `t`, read off its array as the region finds it. -/
def iblk (c : Dev nD) (w : Fin (cfgA a).W) (t : Fin (cfgA a).N) :
    (((cfgA a).win w).xblock ((cfgA a).grid.coords t)).Idx → Elt F ((cfgA a).win w).elt :=
  (((cfgA a).win w).blk t).view.read (Elt F) (V c (Pipeline.arrRef spec0 w))

/-- An input window's current staging buffer holds its block at every point, fetched there or not: a point that does
    not fetch has the block index of the point before, and the body leaves the block in place. -/
theorem before0_0_of {c : Dev nD} (dat : Dat τ (Elt F) Unit ℕ (UR sig nD τ) ℕ (cfgA a) c) (hA : dat.A 0 = V c (Pipeline.arrRef spec0 0))
    (hafter : ∀ t, dat.after 0 t = iblk a V c 0 t) (t : Fin (cfgA a).N) (d) : dat.before 0 t d = iblk a V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfgA a) c) (hA : dat.A 1 = V c (Pipeline.arrRef spec0 1))
    (hafter : ∀ t, dat.after 1 t = iblk a V c 1 t) (t : Fin (cfgA a).N) (d) : dat.before 1 t d = iblk a V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ (cfgA a) c) (hA : dat.A 2 = V c (Pipeline.arrRef spec0 2))
    (hafter : ∀ t, dat.after 2 t = iblk a V c 2 t) (t : Fin (cfgA a).N) (d) : dat.before 2 t d = iblk a V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ (cfgA a) c) (hA : dat.A 3 = V c (Pipeline.arrRef spec0 3))
    (hafter : ∀ t, dat.after 3 t = iblk a V c 3 t) (t : Fin (cfgA a).N) (d) : dat.before 3 t d = iblk a V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each the whole of its buffer -/

abbrev rSeq : Rect S1x512x512 := Rect.unit (s := S1x512x512) ![0, 0, 0] S1x512x512.size inb_S1x512x512_S1x512x512_0_0_0
abbrev rRel : Rect S1x512x1 := Rect.unit (s := S1x512x1) ![0, 0, 0] S1x512x1.size inb_S1x512x1_S1x512x1_0_0_0
abbrev rTab : Rect S512x512 := Rect.unit (s := S512x512) ![0, 0] S512x512.size inb_S512x512_S512x512_0_0

/-- The output block after the body, from the four input blocks: its one store read back. -/
def out0_4 (x0 : Vec F S1x512x512 .f32) (x1 : Vec F S1x512x1 .i32) (x2 x3 : Vec F S512x512 .bf16) : Vec F S1x512x512 .f32 :=
  View.canon [⟨rSeq, k0_pay1 (View.ld x1 rRel) (View.ld x2 rTab) (View.ld x3 rTab) (View.ld x0 rSeq)⟩]

/-- The one store is of the whole block, so it covers it. -/
theorem cover0_4 (p0 : Vec F S1x512x512 .f32) (y : S1x512x512.Idx) :
    ∃ pc ∈ ([⟨rSeq, p0⟩] : List (View.Piece (Elt F) S1x512x512 .f32)), y ∈ pc.1.set :=
  View.cover_of_tiled [⟨rSeq, p0⟩] S1x512x512.size (by rfl) y

/-! ## The body's triple -/

set_option maxHeartbeats 1000000 in
/-- The body on whole staging memrefs, the inputs' at contents `x0 … x3` and the output's at anything, runs to the
    continuation holding the inputs' as they were and the output's at `out0_4` of them. The table's memref is passed
    to the body and never accessed. -/
theorem sound_kernel (c : Dev nD) (E : Set ℕ) (i : grid0.Coords) (arg2 : Memref sig .tc .smem S32x4 .i32) (harg2 : arg2.IsWhole)
    (arg3 : Memref sig .tc .vmem S1x512x512 .f32) (harg3 : arg3.IsWhole) (arg4 : Memref sig .tc .vmem S1x512x1 .i32) (harg4 : arg4.IsWhole)
    (arg5 : Memref sig .tc .vmem S512x512 .bf16) (harg5 : arg5.IsWhole) (arg6 : Memref sig .tc .vmem S512x512 .bf16) (harg6 : arg6.IsWhole)
    (arg7 : Memref sig .tc .vmem S1x512x512 .f32) (harg7 : arg7.IsWhole)
    (x0 : Vec F S1x512x512 .f32) (x1 : Vec F S1x512x1 .i32) (x2 x3 : Vec F S512x512 .bf16) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (out0_4 x0 x1 x2 x3)) -∗ K ⟨⟩))
      ⊢ wp frame (wpE (defs₀ (F := F)) Variants.none c none) E (cc0__pe_gather_kernel i arg2 harg2 arg3 harg3 arg4 harg4 arg5 harg5 arg6 harg6 arg7 harg7) K := by
  simp only [cc0__pe_gather_kernel_eq_skeleton]; unfold cc0__pe_gather_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- Each window's current staging memref at point `t`, as the pipeline passes it to the body, and its wholeness. -/
abbrev ms0_0 (t : Fin (cfgA a).N) : Memref sig .tc .vmem S1x512x512 .f32 := spec0_0.stage ((cfgA a).slots t 0)
abbrev hs0_0 (t : Fin (cfgA a).N) : (ms0_0 a t).IsWhole := hstage0_0 (((cfgA a).slots t 0).cast nbuf0_0)
abbrev ms0_1 (t : Fin (cfgA a).N) : Memref sig .tc .vmem S1x512x1 .i32 := spec0_1.stage ((cfgA a).slots t 1)
abbrev hs0_1 (t : Fin (cfgA a).N) : (ms0_1 a t).IsWhole := hstage0_1 (((cfgA a).slots t 1).cast nbuf0_1)
abbrev ms0_2 (t : Fin (cfgA a).N) : Memref sig .tc .vmem S512x512 .bf16 := spec0_2.stage ((cfgA a).slots t 2)
abbrev hs0_2 (t : Fin (cfgA a).N) : (ms0_2 a t).IsWhole := hstage0_2 (((cfgA a).slots t 2).cast nbuf0_2)
abbrev ms0_3 (t : Fin (cfgA a).N) : Memref sig .tc .vmem S512x512 .bf16 := spec0_3.stage ((cfgA a).slots t 3)
abbrev hs0_3 (t : Fin (cfgA a).N) : (ms0_3 a t).IsWhole := hstage0_3 (((cfgA a).slots t 3).cast nbuf0_3)
abbrev ms0_4 (t : Fin (cfgA a).N) : Memref sig .tc .vmem S1x512x512 .f32 := spec0_4.stage ((cfgA a).slots t 4)
abbrev hs0_4 (t : Fin (cfgA a).N) : (ms0_4 a t).IsWhole := hstage0_4 (((cfgA a).slots t 4).cast nbuf0_4)

/-- The kernel body at point `t`, on what the pipeline calls it with. -/
abbrev bodyAt0 (t : Fin (cfgA a).N) : Prog (TpuEff nD τ sig (Elt F) Λ₀ .tc) PUnit :=
  cc0__pe_gather_kernel (grid0.coords t) (Memref.whole main_v8) (Memref.isWhole_whole _) (ms0_0 a t) (hs0_0 a t) (ms0_1 a t) (hs0_1 a t)
    (ms0_2 a t) (hs0_2 a t) (ms0_3 a t) (hs0_3 a t) (ms0_4 a t) (hs0_4 a t)

/-- The proof data on core `c`: the arrays as the region finds them; after the body at point `t` each input's
    buffer at its block and the output's at `out0_4` of the input blocks; the invariant the scoped rest, the generator
    register and the table's half; nothing owed. The converted table is read by TWO windows, so each holds HALF of it;
    every other input array is held whole. -/
def dats (_ : Fin 1) (c : Dev nD) : Dat τ (Elt F) Unit ℕ (UR sig nD τ) ℕ (cfgA a) c where
  A w := V c (Pipeline.arrRef spec0 w)
  after w t := match w with
    | ⟨0, _⟩ => iblk a V c 0 t
    | ⟨1, _⟩ => iblk a V c 1 t
    | ⟨2, _⟩ => iblk a V c 2 t
    | ⟨3, _⟩ => iblk a V c 3 t
    | ⟨4, _⟩ => out0_4 (iblk a V c 0 t) (iblk a V c 1 t) (iblk a V c 2 t) (iblk a V c 3 t)
  Φ _ := iprop(Pipeline.ΦA spec0 c ∗ Pipeline.ΦT pre0 a.1 c)
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin (cfgA a).W) : (dats a V 0 c).A w = V c (Pipeline.arrRef spec0 w) := by
  dsimp only [dats]

theorem after0_0 (c : Dev nD) (t : Fin (cfgA a).N) : (dats a V 0 c).after 0 t = iblk a V c 0 t := by dsimp only [dats]; try rfl
theorem after0_1 (c : Dev nD) (t : Fin (cfgA a).N) : (dats a V 0 c).after 1 t = iblk a V c 1 t := by dsimp only [dats]; try rfl
theorem after0_2 (c : Dev nD) (t : Fin (cfgA a).N) : (dats a V 0 c).after 2 t = iblk a V c 2 t := by dsimp only [dats]; try rfl
theorem after0_3 (c : Dev nD) (t : Fin (cfgA a).N) : (dats a V 0 c).after 3 t = iblk a V c 3 t := by dsimp only [dats]; try rfl
theorem after0_4 (c : Dev nD) (t : Fin (cfgA a).N) :
    (dats a V 0 c).after 4 t = out0_4 (iblk a V c 0 t) (iblk a V c 1 t) (iblk a V c 2 t) (iblk a V c 3 t) := by dsimp only [dats]; try rfl

theorem before0_0 (c : Dev nD) (t : Fin (cfgA a).N) (d) : (dats a V 0 c).before 0 t d = iblk a V c 0 t :=
  before0_0_of a V (dats a V 0 c) (A_eq a V c 0) (after0_0 a V c) t d
theorem before0_1 (c : Dev nD) (t : Fin (cfgA a).N) (d) : (dats a V 0 c).before 1 t d = iblk a V c 1 t :=
  before0_1_of a V (dats a V 0 c) (A_eq a V c 1) (after0_1 a V c) t d
theorem before0_2 (c : Dev nD) (t : Fin (cfgA a).N) (d) : (dats a V 0 c).before 2 t d = iblk a V c 2 t :=
  before0_2_of a V (dats a V 0 c) (A_eq a V c 2) (after0_2 a V c) t d
theorem before0_3 (c : Dev nD) (t : Fin (cfgA a).N) (d) : (dats a V 0 c).before 3 t d = iblk a V c 3 t :=
  before0_3_of a V (dats a V 0 c) (A_eq a V c 3) (after0_3 a V c) t d

/-! ## The body obligation, at a generic point -/

def bodyPre (c : Dev nD) (t : Fin (cfgA a).N) : sProp 𝕄 :=
  iprop((dats a V 0 c).Φ t.castSucc ∗ (dats a V 0 c).owesAt () t.castSucc
    ∗ (∃ d, owns (c : Thread nD τ) (ms0_0 a t) fullShare ((dats a V 0 c).before 0 t d))
    ∗ (∃ d, owns (c : Thread nD τ) (ms0_1 a t) fullShare ((dats a V 0 c).before 1 t d))
    ∗ (∃ d, owns (c : Thread nD τ) (ms0_2 a t) fullShare ((dats a V 0 c).before 2 t d))
    ∗ (∃ d, owns (c : Thread nD τ) (ms0_3 a t) fullShare ((dats a V 0 c).before 3 t d))
    ∗ (∃ d, owns (c : Thread nD τ) (ms0_4 a t) fullShare ((dats a V 0 c).before 4 t d)))

def bodyPost (c : Dev nD) (t : Fin (cfgA a).N) : sProp 𝕄 :=
  iprop((dats a V 0 c).Φ t.succ ∗ (dats a V 0 c).owesAt () t.succ
    ∗ owns (c : Thread nD τ) (ms0_0 a t) fullShare ((dats a V 0 c).after 0 t)
    ∗ owns (c : Thread nD τ) (ms0_1 a t) fullShare ((dats a V 0 c).after 1 t)
    ∗ owns (c : Thread nD τ) (ms0_2 a t) fullShare ((dats a V 0 c).after 2 t)
    ∗ owns (c : Thread nD τ) (ms0_3 a t) fullShare ((dats a V 0 c).after 3 t)
    ∗ owns (c : Thread nD τ) (ms0_4 a t) fullShare ((dats a V 0 c).after 4 t))

/-- The body at any point: the inputs' memrefs hold their blocks, so the triple applies; the invariant and what the
    core owes pass through unread. -/
theorem sound_body (c : Dev nD) (t : Fin (cfgA a).N) :
    bodyPre a V c t ⊢ wp frame (wpE (defs₀ (F := F)) Variants.none c none) Set.univ (bodyAt0 a t) (fun _ => bodyPost a V c t) := by
  unfold bodyPre bodyPost bodyAt0
  simp only [before0_0, before0_1, before0_2, before0_3]
  rw [show (dats a V 0 c).Φ t.succ = (dats a V 0 c).Φ t.castSucc from rfl,
    show (dats a V 0 c).owesAt () t.succ = (dats a V 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ _ _ (iblk a V c 0 t) (iblk a V c 1 t) (iblk a V c 2 t) (iblk a V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) a V 0 c) (defs₀ (F := F)) Variants.none () Set.univ := fun t => by
  rw [bigSep_W0, bigSep_W0]
  exact sound_body a V c t

end Cert.Kernel.Fr

end
-- ==== Proof.KRun.lean ====
/-
  The region's run. The five windows stand on FOUR arrays: the two table windows read one converted table. At the
  region's entry that table's buffer, held whole, is split in two halves, one per window (a read needs any share,
  and nothing writes the table); every other array is held whole by its one window. From there the launch is the
  library's: every weakly fair execution of the program terminates, the output array ends at the write-backs of
  what the body left at each point, and every buffer the region does not stage ends as the region found it.
-/
import proofs.«129515_j39041252721255_2_alg».proof.Proof.KBody
import Idealize.ShloMosaic.Lib.Pipeline.Kit

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.Kernel Cert.Kernel.Gen

variable {F : FTy → Type} [FloatOps F]

local notation "𝕄" => MT nD τ sig Unit (Elt F) ℕ (UR sig nD τ) ℕ

variable (a : (pcfg0 (F := F)).Adm)
  (V : (c : Dev nD) → (b : Ref sig .tc) → Buf (Elt F) ((c : Thread nD τ).loc b))

/-- The buffers behind the windows' arrays, one by one: four, since two windows read the converted table. -/
theorem arrBufs_eq (c : Dev nD) : (arrBufs spec0 c (V c) : sProp 𝕄)
    = iprop((((c.tc : Thread nD τ).loc main_arg0) ↦{fullShare} V c main_arg0) ∗ (((c.tc : Thread nD τ).loc main_v16) ↦{fullShare} V c main_v16)
        ∗ (((c.tc : Thread nD τ).loc main_v17) ↦{fullShare} V c main_v17) ∗ (((c.tc : Thread nD τ).loc main_v18) ↦{fullShare} V c main_v18)) := by
  unfold arrBufs
  rw [show Finset.univ.image (arrRef spec0) = ({main_arg0, main_v16, main_v17, main_v18} : Finset (Ref sig .tc)) from by decide,
    bigSep_insert (by decide), bigSep_insert (by decide), bigSep_insert (by decide), bigSep_singleton]
  rfl

/-- The proof data's arrays at entry, one by one: the converted table in two halves. -/
theorem arrays0_eq (c : Dev nD) : ((dats a V 0 c).arrays ((dats a V 0 c).arrAt · 0) : sProp 𝕄)
    = iprop((((c.tc : Thread nD τ).loc main_arg0) ↦{fullShare} V c main_arg0) ∗ (((c.tc : Thread nD τ).loc main_v16) ↦{fullShare} V c main_v16)
        ∗ (((c.tc : Thread nD τ).loc main_v17) ↦{fullShare.left} V c main_v17) ∗ (((c.tc : Thread nD τ).loc main_v17) ↦{fullShare.right} V c main_v17)
        ∗ (((c.tc : Thread nD τ).loc main_v18) ↦{fullShare} V c main_v18)) := by
  unfold Dat.arrays
  rw [bigSep_W0, (arr_whole0 0).set_eq_univ, (arr_whole0 1).set_eq_univ, (arr_whole0 2).set_eq_univ, (arr_whole0 4).set_eq_univ]
  rfl

/-- The four buffers behind the five windows' arrays, each whole, make the proof data's arrays at entry. -/
theorem hsplit (c : Dev nD) :
    (arrBufs (cfgA a).spec c (V c) : sProp 𝕄) ⊢ (dats a V 0 c).arrays ((dats a V 0 c).arrAt · 0) := by
  rw [arrays0_eq, show (arrBufs (cfgA a).spec c (V c) : sProp 𝕄) = arrBufs spec0 c (V c) from rfl, arrBufs_eq]
  iintro ⟨H0, H1, H2, H4⟩
  ihave H2' := (pointsTo_share (PosShare.mem_left_op_right fullShare)).1 $$ H2
  icases H2' with ⟨H2, H3⟩
  isplitl [H0]; · iexact H0
  isplitl [H1]; · iexact H1
  isplitl [H2]; · iexact H2
  isplitl [H3]; · iexact H3
  iexact H4

/-! ## The run -/

set_option backward.isDefEq.respectTransparency.types false in
/-- From any memory with zero counters whose host prefix leaves the buffers at `V` (`hmain`) with the table at `a`
    (`hpf`): every weakly fair execution terminates, every array of the pipeline ends at what the write-backs of the
    proof data leave, and every other unscoped buffer — the table too — as the region found it. -/
theorem run_main (m : (ℓ : Loc nD τ sig) → Buf (Elt F) ℓ) (ρ : Dev nD → PrngReg)
    (hmain : HMainP (Ix := Unit) (Name := ℕ) (U := UR sig nD τ) (Lvl := ℕ) pcfgs (0 : Fin 1) defs₀ Variants.none m (main (F := F)) V)
    (hpf : ∀ c k, V c (pre0.ref k) = a.1 k) :
    θ_run defs (onTc (τ := τ) (main (F := F))) (s₀ m ρ) (FramePost (pin pcfgs fun _ => a) (dats a V) 0 V) := by
  classical
  exact θ_run_region_pf pcfgs (fun _ => a) (dats a V) () (cellOf_inj (fun _ => a)) (0 : Fin 1) winFacts₀0 (OwnSemFacts.none _) preFacts0 emb₁ defs₀ Variants.none m ρ main
    (fun c => (body_obligation a V c).loose)
    block_pos0 arr_whole0 stage_whole0 (fun _ _ => rfl)
    (G := fun _ => iprop(emp)) (u₀ := initOf (cells (pin pcfgs fun _ => a) (cellOf_inj fun _ => a)) (launchToks (pin pcfgs fun _ => a) (cellOf_inj fun _ => a)))
    (hu₀ := by
      iintro Hu; imodintro
      isplitl [Hu]; · iapply (show (ownU _ : sProp 𝕄) ⊢ BI.own (emb₁ (initOf (cells (pin pcfgs fun _ => a) (cellOf_inj fun _ => a)) (launchToks (pin pcfgs fun _ => a) (cellOf_inj fun _ => a)))) from .rfl); iexact Hu
      iapply (show (BI.emp : sProp 𝕄) ⊢ bigSep Finset.univ (fun _ : Dev nD => (BI.emp : sProp 𝕄)) from by rw [BI.bigSep_emp_const])
      iempintro)
    (V := V) (hmain := hmain)
    (hsplit := hsplit a V)
    (hpf := hpf)
    (X := fun c => iprop(∃ r, prngReg c r)) (Y := fun c => iprop(∃ r, prngReg c r))
    (Z := fun c => unscopedRestP (Ix := Unit) (Name := ℕ) (U := UR sig nD τ) (Lvl := ℕ) pre0 spec0 c (V c))
    (hX := fun c => by
      iintro ⟨HU, -, -, -, Hp, -⟩; imodintro
      isplitl [Hp]; · iexists _; iexact Hp
      iexact HU)
    (hin := fun c => by
      change _ ⊢ iprop(ΦA spec0 c ∗ ΦT pre0 a.1 c)
      unfold ΦA ΦT; iintro ⟨Hp, Ht, Hr⟩
      isplitr [Ht]
      · isplitl [Hr] <;> iassumption
      · iexact Ht)
    (hout := fun c => by
      change iprop(ΦA spec0 c ∗ ΦT pre0 a.1 c) ⊢ _
      rw [ownSems0_none]; unfold ΦA
      iintro ⟨⟨Hr, Hp⟩, -⟩
      isplitl [Hp]; · iexact Hp
      isplitr; · iempintro
      iexact Hr)
    (QY := fun c s => ∀ b ∈ restRefsP sig pre0 spec0, s.mem ((c.tc : Thread nD τ).loc b) = V c b)
    (hY := fun c s' => by
      iintro ⟨-, HU, HSI⟩
      unfold unscopedRestP
      imodintro
      iapply (pointsTo_read_all (restRefsP sig pre0 spec0) (fun b => (c.tc : Thread nD τ).loc b) (V c) s')
      isplitl [HU] <;> iassumption)
    (hQ := fun s h c => ⟨fun w => (h c).1 w, rest_of_restP pre0 spec0 a.1 c (V c) s (hpf c) (h c).2.1 (h c).2.2⟩)

end Cert.Kernel.Fr

end
-- ==== Proof.PeSpec.lean ====
/-
  The integer quantities both programs compute before anything touches a float, spelled once.

  For a mask of 32 rows by 2048 positions: the mask as 0/1 words; the running count of ones along a row (a window of
  2048 positions ending at the position, the padding counting nothing); and the RANK of a position — the count minus
  one, kept inside 0 … 2047. A set position's rank is its number among the set positions of its row, counted from 0.
  These are the operations' own terms, so that each program's value is this term by unfolding.
-/
import Idealize.ShloMosaic.PureOps
import Idealize.ShloMosaic.Lib.ValueIdx

noncomputable section

namespace Cert.PeSpec

open Idealize.ShloMosaic Idealize.ShloMosaic.ValueIdx

/-- 32 rows of 2048 positions. -/
abbrev SB : Shape := ⟨2, ![32, 2048]⟩
/-- The scalar shape. -/
abbrev S0 : Shape := ⟨0, ![]⟩

/-- A scalar word in every position. -/
abbrev splat (b : BitVec 32) : IVec SB 32 := broadcastInDim SB ![] (by decide) (constantI S0 32 b)

/-- The mask as words: 1 where set, 0 elsewhere. -/
def maskW (mask : IVec SB 1) : IVec SB 32 := extui 32 mask (by decide)

/-- The running sum along each row: position `s` holds the sum of positions `0 … s`. -/
def csum (x : IVec SB 32) : IVec SB 32 :=
  Host.reduceWindow (t := SB) (u := S0) IntOp.addi ![1, 2048] ![1, 1] ![0, 2047] ![0, 0] x
    (broadcastInDim S0 ![] (by decide) (constantI S0 32 0#32)) (by decide) (by decide)

/-- The rank: the running count of set positions, minus one, clipped below at 0 and above at 2047. -/
def rank (mask : IVec SB 1) : IVec SB 32 :=
  minsi (splat 2047#32) (maxsi (splat 0#32) (subi (csum (maskW mask)) (splat 1#32)))

/-- The sign word of an integer: 0, 1 or -1. -/
def sgn (x : BitVec 32) : BitVec 32 := if x = 0 then 0 else if x.msb then -1 else 1

/-- Floor division by 512 as the host spells it: the quotient rounded toward zero, lowered by one when the signs
    differ and the remainder is not zero. -/
def fdiv512 (x : BitVec 32) : BitVec 32 :=
  Scalar.select (IntOp.andi (IntOp.cmpi .ne (sgn x) (sgn 512#32)) (IntOp.cmpi .ne (IntOp.remsi .host x 512#32) 0#32))
    (IntOp.subi (IntOp.divsi .host x 512#32) 1#32) (IntOp.divsi .host x 512#32)

/-- The one-hot weight of lane `i` against the word `w`: 1 when the lane's number is the word, else 0. -/
def hot (w : BitVec 32) (i : Fin 512) : EReal := if BitVec.ofNat 32 i.val = w then 1 else 0

end Cert.PeSpec

end
-- ==== Proof.KHost.lean ====
/-
  What the host operations before the region leave in the buffers the region reads.

  Before the region the host computes, from the mask of 32 rows by 2048 positions, the rank of every position (the
  running count of set positions minus one, kept inside 0 … 2047), cuts each row into 4 tiles of 512 positions, and
  builds two integer arrays: the block-number table, whose entry (b, t) is the floor of the rank at the first
  position of tile t of row b over 512, and the relative-rank column, whose entry at a set position is the rank minus
  512 times its tile's block number and at an unset position is the all-ones word. The third argument is narrowed to
  sixteen bits. None of this writes an argument. Each array is stated here as a pure function of the launched mask
  and read at one entry.
-/
import proofs.«129515_j39041252721255_2_alg».proof.Proof.Gen.Kernel.Launch
import proofs.«129515_j39041252721255_2_alg».proof.Proof.PeSpec
import Idealize.ShloMosaic.Lib.StableHlo.Run
import Idealize.ShloMosaic.Lib.Pipeline.Value
import Idealize.ShloMosaic.Lib.ValueIdx
import Idealize.ShloMosaic.Lib.ValueLayout

noncomputable section

namespace Cert.Kernel.Hst

open Idealize.ShloMosaic Idealize.ShloMosaic.TcCoe Idealize.SL.Sem Idealize.ShloMosaic.ValueIdx Cert.Kernel Cert.Kernel.Gen

variable {F : FTy → Type} [FloatOps F]

variable (m : (ℓ : Loc nD τ sig) → Buf (Elt F) ℓ)

/-- Core c's buffers when the region is entered: after every host operation before it, in order. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

/-- No host operation before the region writes the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8,
      List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes the second argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8,
      List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes the third argument. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8,
      List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The block-number table -/

/-- The rank, tile by tile: position s of a row is lane s % 512 of tile s / 512. -/
def rankTiles (mask : IVec S32x2048 1) : IVec S32x4x512 32 :=
  shapeCast S32x4x512 (Cert.PeSpec.rank mask) shapeCasts_S32x2048_S32x4x512

/-- The rank at each tile's first position. -/
def rankFirst (mask : IVec S32x2048 1) : IVec S32x4 32 :=
  shapeCast S32x4 (extractStridedSlice S32x4x1 ![0, 0, 0] (rankTiles mask) slices_S32x4x512_S32x4x1_0_0_0) shapeCasts_S32x4x1_S32x4

/-- The scalar word 512 in every entry of a [32, 4] table. -/
abbrev c512 : IVec S32x4 32 := broadcastInDim S32x4 ![] bcast_S_S32x4 (constantI S_ 32 512#32)

/-- Floor division by 512 of every entry of a [32, 4] table, operation by operation: the quotient rounded toward
    zero, lowered by one where the signs differ and the remainder is not zero. -/
def fdivTab (x : IVec S32x4 32) : IVec S32x4 32 :=
  select
    (andi (cmpi .ne (signi x) (broadcastInDim S32x4 ![] bcast_S_S32x4 (signi (constantI S_ 32 512#32))))
      (cmpi .ne (Host.remsi x c512) (broadcastInDim S32x4 ![] bcast_S_S32x4 (constantI S_ 32 0#32))))
    (subi (Host.divsi x c512) (broadcastInDim S32x4 ![] bcast_S_S32x4 (constantI S_ 32 1#32)))
    (Host.divsi x c512)

/-- The block-number table: the floor of the rank at each tile's first position over 512. -/
def kTab (mask : IVec S32x2048 1) : IVec S32x4 32 := fdivTab (rankFirst mask)

set_option maxRecDepth 8192 in
set_option maxHeartbeats 1000000 in
/-- The table the region is given is the block-number table of the launched mask. -/
theorem V_main_v8 (c : Dev nD) : V m c main_v8 = kTab (m ((c : Thread nD τ).loc main_arg1)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  unfold kTab fdivTab rankFirst rankTiles Cert.PeSpec.rank Cert.PeSpec.csum Cert.PeSpec.maskW
  simp only [StableHlo.TRef.ofBuf, StableHlo.TRef.toBuf, cast_cast, cast_eq, id]
  rfl

/-! ## The block-number table at an entry -/

/-- The rank at the first position of tile t of row b. -/
theorem rankFirst_apply (mask : IVec S32x2048 1) (b : Fin 32) (t : Fin 4) :
    rankFirst mask (ix2 b t) = Cert.PeSpec.rank mask (ix2 b ⟨512 * t.val, by omega⟩) := by
  unfold rankFirst rankTiles
  refine (shapeCast_apply _ _ (ix2 b t) (ix3 b t (0 : Fin 1)) ?_).trans ?_
  · rw [Shape.rowMajor_val_three, Shape.rowMajor_val_two]
    show (b.val * 4 + t.val) * 1 + 0 = b.val * 4 + t.val
    omega
  refine (extractStridedSlice_apply _ _ _ (ix3 b t (0 : Fin 1)) (ix3 b t (0 : Fin 512)) (fun a => ?_)).trans ?_
  · match a with
    | ⟨0, _⟩ => exact (Nat.zero_add _).symm
    | ⟨1, _⟩ => exact (Nat.zero_add _).symm
    | ⟨2, _⟩ => rfl
  refine shapeCast_apply _ _ (ix3 b t (0 : Fin 512)) (ix2 b ⟨512 * t.val, by omega⟩) ?_
  rw [Shape.rowMajor_val_three, Shape.rowMajor_val_two]
  show b.val * 2048 + 512 * t.val = (b.val * 4 + t.val) * 512 + 0
  omega

/-- The seventeen operations, at one entry, are the floor division by 512 of that entry. -/
theorem fdivTab_apply (x : IVec S32x4 32) (j : S32x4.Idx) : fdivTab x j = Cert.PeSpec.fdiv512 (x j) := rfl

/-- The block-number table at (b, t): the floor of the rank at position 512 t of row b over 512. -/
theorem kTab_apply (mask : IVec S32x2048 1) (b : Fin 32) (t : Fin 4) :
    kTab mask (ix2 b t) = Cert.PeSpec.fdiv512 (Cert.PeSpec.rank mask (ix2 b ⟨512 * t.val, by omega⟩)) := by
  unfold kTab
  rw [fdivTab_apply, rankFirst_apply]

/-! ## The relative-rank column -/

/-- The relative rank, tile by tile: at a set position the rank minus 512 times the tile's block number, at an unset
    position the all-ones word. -/
def relTiles (mask : IVec S32x2048 1) : IVec S32x4x512 32 :=
  select (shapeCast S32x4x512 mask shapeCasts_S32x2048_S32x4x512)
    (subi (rankTiles mask)
      (broadcastInDim S32x4x512 ![0, 1, 2] bcast_S32x4x1_S32x4x512_0_1_2
        (muli (broadcastInDim S32x4x1 ![0, 1] bcast_S32x4_S32x4x1_0_1 (kTab mask))
          (broadcastInDim S32x4x1 ![] bcast_S_S32x4x1 (constantI S_ 32 512#32)))))
    (broadcastInDim S32x4x512 ![] bcast_S_S32x4x512 (constantI S_ 32 4294967295#32))

/-- The relative-rank column: the tiles laid back along the row, one word per position. -/
def relArr (mask : IVec S32x2048 1) : IVec S32x2048x1 32 :=
  shapeCast S32x2048x1 (relTiles mask) shapeCasts_S32x4x512_S32x2048x1

set_option maxRecDepth 8192 in
set_option maxHeartbeats 2000000 in
/-- The column the region is given is the relative-rank column of the launched mask. -/
theorem V_main_v16 (c : Dev nD) : V m c main_v16 = relArr (m ((c : Thread nD τ).loc main_arg1)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  unfold relArr relTiles kTab fdivTab rankFirst rankTiles Cert.PeSpec.rank Cert.PeSpec.csum Cert.PeSpec.maskW
  simp only [StableHlo.TRef.ofBuf, StableHlo.TRef.toBuf, cast_cast, cast_eq, id]
  rfl

set_option maxRecDepth 8192 in
set_option maxHeartbeats 1000000 in
/-- The table block the region is given is the third argument as launched, narrowed to sixteen bits. -/
theorem V_main_v17 (c : Dev nD) :
    V m c main_v17 = truncf .bf16 (m ((c : Thread nD τ).loc main_arg2)) bitsLt_bf16_f32 := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp

/-! ## The relative-rank column at an entry -/

/-- A row of 2048 cut into 4 tiles of 512 reads, at lane r of tile q, the row's position 512 q + r. -/
theorem tiles_apply {α : Type} (x : S32x2048.Idx → α) (h : S32x2048.ShapeCasts S32x4x512)
    (b : Fin 32) (q : Fin 4) (r : Fin 512) (s : Fin 2048) (hs : s.val = 512 * q.val + r.val) :
    shapeCast S32x4x512 x h (ix3 b q r) = x (ix2 b s) := by
  refine shapeCast_apply _ _ (ix3 b q r) (ix2 b s) ?_
  rw [Shape.rowMajor_val_three, Shape.rowMajor_val_two]
  show b.val * 2048 + s.val = (b.val * 4 + q.val) * 512 + r.val
  omega

/-- A select between words on equal conditions and equal branches. -/
theorem select_congr {c c' : BitVec 1} {x x' y y' : BitVec 32} (hc : c = c') (hx : x = x') (hy : y = y') :
    Scalar.select c x y = Scalar.select c' x' y' := by
  rw [hc, hx, hy]

/-- The relative rank at lane r of tile q of row b, which is the row's position s = 512 q + r. -/
theorem relTiles_apply (mask : IVec S32x2048 1) (b : Fin 32) (q : Fin 4) (r : Fin 512) (s : Fin 2048)
    (hs : s.val = 512 * q.val + r.val) :
    relTiles mask (ix3 b q r) = Scalar.select (mask (ix2 b s))
      (Cert.PeSpec.rank mask (ix2 b s) - kTab mask (ix2 b q) * 512#32) (4294967295#32 : BitVec 32) := by
  have e1 := tiles_apply mask shapeCasts_S32x2048_S32x4x512 b q r s hs
  have e2 : rankTiles mask (ix3 b q r) = Cert.PeSpec.rank mask (ix2 b s) :=
    tiles_apply (Cert.PeSpec.rank mask) shapeCasts_S32x2048_S32x4x512 b q r s hs
  have e3 : broadcastInDim S32x4x512 ![0, 1, 2] bcast_S32x4x1_S32x4x512_0_1_2
        (muli (broadcastInDim S32x4x1 ![0, 1] bcast_S32x4_S32x4x1_0_1 (kTab mask))
          (broadcastInDim S32x4x1 ![] bcast_S_S32x4x1 (constantI S_ 32 512#32))) (ix3 b q r)
      = kTab mask (ix2 b q) * 512#32 := by
    refine (broadcastInDim_apply _ _ _ (ix3 b q r) (ix3 b q (0 : Fin 1)) (fun a => ?_)).trans ?_
    · match a with
      | ⟨0, _⟩ => rfl
      | ⟨1, _⟩ => rfl
      | ⟨2, _⟩ => rfl
    refine congrArg (· * 512#32) (broadcastInDim_apply _ _ _ (ix3 b q (0 : Fin 1)) (ix2 b q) (fun a => ?_))
    match a with
    | ⟨0, _⟩ => rfl
    | ⟨1, _⟩ => rfl
  unfold relTiles
  refine (select_apply _ _ _ _).trans ?_
  exact select_congr e1 (congrArg₂ (· - ·) e2 e3) rfl

/-- The relative-rank column at position s of row b. -/
theorem relArr_apply (mask : IVec S32x2048 1) (b : Fin 32) (s : Fin 2048) :
    relArr mask (ix3 b s (0 : Fin 1)) = Scalar.select (mask (ix2 b s))
      (Cert.PeSpec.rank mask (ix2 b s) - kTab mask (ix2 b ⟨s.val / 512, by omega⟩) * 512#32) (4294967295#32 : BitVec 32) := by
  unfold relArr
  refine (shapeCast_apply _ _ (ix3 b s (0 : Fin 1))
    (ix3 b (⟨s.val / 512, by omega⟩ : Fin 4) (⟨s.val % 512, Nat.mod_lt _ (by decide)⟩ : Fin 512)) ?_).trans ?_
  · rw [Shape.rowMajor_val_three, Shape.rowMajor_val_three]
    show (b.val * 4 + s.val / 512) * 512 + s.val % 512 = (b.val * 2048 + s.val) * 1 + 0
    omega
  exact relTiles_apply mask b _ _ s (by show s.val = 512 * (s.val / 512) + s.val % 512; omega)

end Cert.Kernel.Hst

end
-- ==== Proof.RankFacts.lean ====
/-
  Integer facts about the running count and the rank.

  The mask's words are 0 or 1. The running sum along a row is a left fold of 32-bit additions over a window of 2048
  positions ending at the position, the padding reading 0: the window's position `c` reads the row's entry
  `s + c - 2047` when that is not negative. For entries that are 0 or 1 the sum is at most 2048 and does not wrap, so as
  a natural number it is the sum of the entries at positions `0 … s`. The rank is that count minus one, clipped to
  `0 … 2047` in signed arithmetic; for a count of at most 2048 the clip is the natural subtraction. Hence the rank is at
  most 2047, it does not decrease along a row, and it grows by at most one per position. Last, floor division by 512 of
  a word in `0 … 2047`: the dividend is not negative, so the signed quotient is the plain one and no correction applies.
-/
import proofs.«129515_j39041252721255_2_alg».proof.Proof.PeSpec
import Idealize.ShloMosaic.PureOps
import Idealize.ShloMosaic.Lib.ValueIdx
import Mathlib

namespace Cert.PeSpec

open Idealize.ShloMosaic Idealize.ShloMosaic.ValueIdx

open scoped BigOperators

/-- The mask words are 0 or 1. -/
theorem maskW_le_one (mask : IVec SB 1) (j : SB.Idx) : (maskW mask j).toNat ≤ 1 := by
  show ((mask j).setWidth 32).toNat ≤ 1
  have := (mask j).isLt
  simp only [BitVec.toNat_setWidth]
  have h2 : (mask j).toNat % 2 ^ 32 ≤ (mask j).toNat := Nat.mod_le _ _
  omega

/-- A left fold of 32-bit additions is the sum of the terms as naturals, as long as that sum fits in 32 bits. -/
theorem foldl_addi_toNat {ι : Type} (g : ι → BitVec 32) (l : List ι) (init : BitVec 32)
    (hb : init.toNat + (l.map fun n => (g n).toNat).sum < 2 ^ 32) :
    (l.foldl (fun r n => IntOp.addi r (g n)) init).toNat = init.toNat + (l.map fun n => (g n).toNat).sum := by
  induction l generalizing init with
  | nil => simp
  | cons a l ih =>
    simp only [List.map_cons, List.sum_cons] at hb
    have h1 : (IntOp.addi init (g a)).toNat = init.toNat + (g a).toNat := by
      show (init + g a).toNat = _
      rw [BitVec.toNat_add]; exact Nat.mod_eq_of_lt (by omega)
    rw [List.foldl_cons, ih _ (by rw [h1]; omega), h1]
    simp only [List.map_cons, List.sum_cons]; omega

/-- The window of one row by 2048 positions. -/
abbrev W : Shape := ⟨2, ![1, 2048]⟩

/-- What the window at row `b`, position `s` reads at its own position `w`: the operand at position
    `s + w - 2047` of the row when that is not negative, and 0 in the padding. -/
def wterm (x : IVec SB 32) (b : Fin 32) (s : Fin 2048) (w : W.Idx) : BitVec 32 :=
  if h : ∀ a : Fin 2, ![0, 2047] a ≤ (ix2 b s a).val * ![1, 1] a + (w a).val ∧
       (ix2 b s a).val * ![1, 1] a + (w a).val - ![0, 2047] a < ![32, 2048] a then
    x fun a => ⟨(ix2 b s a).val * ![1, 1] a + (w a).val - ![0, 2047] a, (h a).2⟩
  else 0#32

/-- The running sum at a position is the fold of the window's terms. -/
theorem csum_eq_foldl (x : IVec SB 32) (b : Fin 32) (s : Fin 2048) :
    csum x (ix2 b s)
      = (List.finRange W.numel).foldl (fun r n => IntOp.addi r (wterm x b s (W.rowMajor.symm n))) 0#32 := rfl

/-- Entry `k` of row `b` as a natural number, 0 past the end of the row. -/
def rowN (x : IVec SB 32) (b : Fin 32) (k : Nat) : Nat := if h : k < 2048 then (x (ix2 b ⟨k, h⟩)).toNat else 0

/-- The sum of the first `k` entries of row `b`. -/
def cnt (x : IVec SB 32) (b : Fin 32) (k : Nat) : Nat := ∑ i ∈ Finset.range k, rowN x b i

/-- The window's term at its position `c` along the row. -/
theorem wterm_ix (x : IVec SB 32) (b : Fin 32) (s c : Fin 2048) :
    (wterm x b s (ix2 (0 : Fin 1) c)).toNat = if 2047 ≤ s.val + c.val then rowN x b (s.val + c.val - 2047) else 0 := by
  have hs := s.isLt
  have hc := c.isLt
  have hb := b.isLt
  unfold wterm
  by_cases h : 2047 ≤ s.val + c.val
  · have hlt : s.val + c.val - 2047 < 2048 := by omega
    rw [if_pos h, dif_pos]
    · unfold rowN
      rw [dif_pos hlt]
      congr 2
      funext a
      match a with
      | ⟨0, _⟩ => exact Fin.ext (by show b.val * 1 + 0 - 0 = b.val; omega)
      | ⟨1, _⟩ => exact Fin.ext (by show s.val * 1 + c.val - 2047 = s.val + c.val - 2047; omega)
    · intro a
      match a with
      | ⟨0, _⟩ => show 0 ≤ b.val * 1 + 0 ∧ b.val * 1 + 0 - 0 < 32; omega
      | ⟨1, _⟩ => show 2047 ≤ s.val * 1 + c.val ∧ s.val * 1 + c.val - 2047 < 2048; omega
  · rw [if_neg h, dif_neg]
    · rfl
    · intro hall
      have h1 := hall ⟨1, by decide⟩
      change 2047 ≤ s.val * 1 + c.val ∧ s.val * 1 + c.val - 2047 < 2048 at h1
      omega

/-- The window's terms, summed as naturals, are the first `s + 1` entries of the row. -/
theorem wsum_eq (x : IVec SB 32) (b : Fin 32) (s : Fin 2048) :
    ((List.finRange W.numel).map fun n => (wterm x b s (W.rowMajor.symm n)).toNat).sum = cnt x b (s.val + 1) := by
  have hs := s.isLt
  rw [← Fin.sum_univ_def, Equiv.sum_comp W.rowMajor.symm (fun w => (wterm x b s w).toNat),
    sum_idx2 (fun w => (wterm x b s w).toNat), Fin.sum_univ_one]
  simp only [wterm_ix]
  rw [Fin.sum_univ_eq_sum_range (fun c => if 2047 ≤ s.val + c then rowN x b (s.val + c - 2047) else 0) 2048,
    ← Finset.sum_range_add_sum_Ico _ (show 2047 - s.val ≤ 2048 by omega),
    Finset.sum_eq_zero (fun c hc => if_neg (by have := Finset.mem_range.1 hc; omega)),
    Finset.sum_Ico_eq_sum_range, Nat.zero_add]
  unfold cnt
  rw [show 2048 - (2047 - s.val) = s.val + 1 by omega]
  refine Finset.sum_congr rfl fun i _ => ?_
  rw [if_pos (by omega)]
  congr 1
  omega

/-- The sum of the first `k` entries of a row of 0/1 words is at most `k`. -/
theorem cnt_le (x : IVec SB 32) (hx : ∀ j, (x j).toNat ≤ 1) (b : Fin 32) (k : Nat) : cnt x b k ≤ k := by
  unfold cnt
  calc ∑ i ∈ Finset.range k, rowN x b i ≤ ∑ _i ∈ Finset.range k, 1 :=
        Finset.sum_le_sum fun i _ => by
          unfold rowN; split
          · exact hx _
          · exact Nat.zero_le _
    _ = k := by simp

/-- The running sum of a row of 0/1 words, as a natural number. -/
theorem csum_toNat_cnt (x : IVec SB 32) (hx : ∀ j, (x j).toNat ≤ 1) (b : Fin 32) (s : Fin 2048) :
    (csum x (ix2 b s)).toNat = cnt x b (s.val + 1) := by
  have hs := s.isLt
  have hc := cnt_le x hx b (s.val + 1)
  rw [csum_eq_foldl, foldl_addi_toNat _ _ _ (by rw [wsum_eq]; show 0 + _ < _; omega), wsum_eq]
  show 0 + _ = _
  omega

/-- The sum over the positions up to `s` of a row is the sum of its first `s + 1` entries. -/
theorem filter_sum_eq_cnt (x : IVec SB 32) (b : Fin 32) (s : Fin 2048) :
    ∑ j ∈ (Finset.univ.filter fun j : Fin 2048 => j.val ≤ s.val), (x (ix2 b j)).toNat = cnt x b (s.val + 1) := by
  have hs := s.isLt
  rw [Finset.sum_filter]
  have h1 : ∀ j : Fin 2048, (if j.val ≤ s.val then (x (ix2 b j)).toNat else 0)
      = (fun k : Nat => if k ≤ s.val then rowN x b k else 0) j.val := by
    intro j
    show _ = if j.val ≤ s.val then rowN x b j.val else 0
    unfold rowN
    rw [dif_pos j.isLt]
  rw [Finset.sum_congr rfl fun j _ => h1 j, Fin.sum_univ_eq_sum_range (fun k : Nat => if k ≤ s.val then rowN x b k else 0) 2048,
    ← Finset.sum_filter]
  unfold cnt
  congr 1
  ext k
  simp only [Finset.mem_filter, Finset.mem_range]
  omega

/-- The running sum of a row of 0/1 words at position `s`, as a natural number: the sum of the entries at positions `0 … s`. -/
theorem csum_toNat (x : IVec SB 32) (hx : ∀ j, (x j).toNat ≤ 1) (b : Fin 32) (s : Fin 2048) :
    (csum x (ix2 b s)).toNat = ∑ j ∈ (Finset.univ.filter fun j : Fin 2048 => j.val ≤ s.val), (x (ix2 b j)).toNat := by
  rw [csum_toNat_cnt x hx, filter_sum_eq_cnt]

/-- A 0/1 row's entries as naturals are at most 1. -/
theorem rowN_le_one (x : IVec SB 32) (hx : ∀ j, (x j).toNat ≤ 1) (b : Fin 32) (k : Nat) : rowN x b k ≤ 1 := by
  unfold rowN; split
  · exact hx _
  · exact Nat.zero_le _

/-- Lengthening the prefix of a 0/1 row by `d` entries raises its sum, by at most `d`. -/
theorem cnt_step (x : IVec SB 32) (hx : ∀ j, (x j).toNat ≤ 1) (b : Fin 32) (k d : Nat) :
    cnt x b k ≤ cnt x b (k + d) ∧ cnt x b (k + d) ≤ cnt x b k + d := by
  unfold cnt
  rw [Finset.sum_range_add]
  have h : ∑ i ∈ Finset.range d, rowN x b (k + i) ≤ d :=
    calc ∑ i ∈ Finset.range d, rowN x b (k + i) ≤ ∑ _i ∈ Finset.range d, 1 :=
          Finset.sum_le_sum fun i _ => rowN_le_one x hx b _
      _ = d := by simp
  omega

/-- For a count `c` of at most 2048, the signed clip of `c - 1` to `0 … 2047` is the natural `c - 1`. -/
theorem clip_toNat (c : BitVec 32) (h : c.toNat ≤ 2048) :
    (IntOp.minsi 2047#32 (IntOp.maxsi 0#32 (IntOp.subi c 1#32))).toNat = c.toNat - 1 := by
  by_cases h0 : c.toNat = 0
  · have hc : c = 0#32 := BitVec.eq_of_toNat_eq (by simpa using h0)
    subst hc; decide
  · have hd : (IntOp.subi c 1#32).toNat = c.toNat - 1 := by
      show (c - 1#32).toNat = _
      rw [BitVec.toNat_sub]
      have : (1#32 : BitVec 32).toNat = 1 := rfl
      rw [this]
      have hlt := c.isLt
      omega
    generalize IntOp.subi c 1#32 = d at hd
    have hdi : d.toInt = (d.toNat : Int) := by
      rw [BitVec.toInt_eq_toNat_cond]; split <;> omega
    have h0i : (0#32 : BitVec 32).toInt = 0 := by decide
    have h2i : (2047#32 : BitVec 32).toInt = 2047 := by decide
    have hmax : IntOp.maxsi 0#32 d = d := by
      unfold IntOp.maxsi
      rw [if_neg]
      rw [BitVec.slt, decide_eq_true_eq, hdi, h0i]; omega
    have hmin : IntOp.minsi 2047#32 d = d := by
      unfold IntOp.minsi
      rw [if_neg]
      rw [BitVec.slt, decide_eq_true_eq, hdi, h2i]; omega
    rw [hmax, hmin, hd]

/-- The rank as a natural number: the count of set positions up to the position, minus one. -/
theorem rank_toNat (mask : IVec SB 1) (b : Fin 32) (s : Fin 2048) :
    (rank mask (ix2 b s)).toNat = cnt (maskW mask) b (s.val + 1) - 1 := by
  have hs := s.isLt
  have hc := cnt_le (maskW mask) (maskW_le_one mask) b (s.val + 1)
  show (IntOp.minsi 2047#32 (IntOp.maxsi 0#32 (IntOp.subi (csum (maskW mask) (ix2 b s)) 1#32))).toNat = _
  rw [clip_toNat _ (by rw [csum_toNat_cnt _ (maskW_le_one mask)]; omega), csum_toNat_cnt _ (maskW_le_one mask)]

/-- The rank is at most 2047. -/
theorem rank_le (mask : IVec SB 1) (b : Fin 32) (s : Fin 2048) : (rank mask (ix2 b s)).toNat ≤ 2047 := by
  have hs := s.isLt
  have hc := cnt_le (maskW mask) (maskW_le_one mask) b (s.val + 1)
  rw [rank_toNat]; omega

/-- The rank does not decrease along a row and grows by at most one per position. -/
theorem rank_step (mask : IVec SB 1) (b : Fin 32) (s s' : Fin 2048) (h : s.val ≤ s'.val) :
    (rank mask (ix2 b s)).toNat ≤ (rank mask (ix2 b s')).toNat
      ∧ (rank mask (ix2 b s')).toNat ≤ (rank mask (ix2 b s)).toNat + (s'.val - s.val) := by
  have hst := cnt_step (maskW mask) (maskW_le_one mask) b (s.val + 1) (s'.val - s.val)
  rw [show s.val + 1 + (s'.val - s.val) = s'.val + 1 by omega] at hst
  rw [rank_toNat, rank_toNat]
  omega

/-- Floor division by 512 of a word in `0 … 2047` is the plain quotient. -/
theorem fdiv512_eq (x : BitVec 32) (h : x.toNat ≤ 2047) : fdiv512 x = BitVec.ofNat 32 (x.toNat / 512) := by
  by_cases hx0 : x = 0#32
  · subst hx0; decide
  · have hm : x.msb = false := by
      rw [BitVec.msb_eq_false_iff_two_mul_lt]; omega
    have hnc : ¬ IntOp.SDivCorner x 512#32 := by
      rintro (h1 | ⟨_, h1⟩)
      · exact absurd h1 (by decide)
      · exact absurd h1 (by decide)
    have hdiv : IntOp.divsi .host x 512#32 = BitVec.ofNat 32 (x.toNat / 512) := by
      unfold IntOp.divsi
      rw [if_neg hnc, BitVec.sdiv_eq, hm]
      show x / 512#32 = _
      apply BitVec.eq_of_toNat_eq
      have e512 : (512#32 : BitVec 32).toNat = 512 := rfl
      have hq : x.toNat / 512 < 2 ^ 32 := by omega
      rw [BitVec.toNat_udiv, e512, BitVec.toNat_ofNat, Nat.mod_eq_of_lt hq]
    have hs : sgn x = 1#32 := by
      unfold sgn; rw [if_neg (show ¬ x = 0 from hx0), hm]; rfl
    have hs5 : sgn 512#32 = 1#32 := by decide
    have hne : IntOp.cmpi .ne 1#32 1#32 = 0#1 := by decide
    unfold fdiv512
    rw [hdiv, hs, hs5, hne]
    show Scalar.select (0#1 &&& _) _ _ = _
    rw [BitVec.zero_and]
    rfl

end Cert.PeSpec
-- ==== Proof.PayValue.lean ====
/-
  The kernel body's arithmetic read at one element, at the ideal values.

  The body builds, from a column of 512 integer words, two 512 × 512 one-hot matrices: row j of the first has a 1 in
  lane i exactly when i is the word of row j, row j of the second when i is that word minus 512. It multiplies each
  into a 512 × 512 block of a table, starting from zero, adds the two products and adds the sum to a third block.
  At the ideal values a product into the zero accumulator is the plain sum over the contracted coordinate, a format
  change is the identity and the conversion of the words 0 and 1 gives the reals 0 and 1, so the element at (j, d)
  is the third block's element plus two sums over the lanes of a one-hot weight times a table entry. A sum against a
  one-hot weight is the one entry the word selects, or zero when the word selects no lane.
-/
import proofs.«129515_j39041252721255_2_alg».proof.Proof.PeSpec
import proofs.«129515_j39041252721255_2_alg».proof.Proof.Gen.KernelIdeal
import proofs.«129515_j39041252721255_2_alg».proof.Proof.Gen.KernelIdeal.Skeleton
import Idealize.ShloMosaic.Lib.ValueLayout
import Idealize.ShloMosaic.Lib.Affine
import Idealize.ShloMosaic.PureOps.Ideal.Laws

noncomputable section

namespace Cert.KernelIdeal.PayValue

open Idealize.ShloMosaic Idealize.ShloMosaic.ValueIdx Cert.KernelIdeal Cert.KernelIdeal.Gen

/-! ## A sum against a one-hot weight -/

/-- The word of a lane's number, for a lane below 512, is the given word exactly when the word's number is the lane's. -/
theorem ofNat_eq_iff (w : BitVec 32) (i : Fin 512) : BitVec.ofNat 32 i.val = w ↔ w.toNat = i.val := by
  constructor
  · intro e
    rw [← e, BitVec.toNat_ofNat]
    have := i.isLt
    omega
  · intro e
    rw [← e, BitVec.ofNat_toNat, BitVec.setWidth_eq]

/-- A sum over the 512 lanes against the one-hot weight of a word is the term at the word's lane, or zero when the
    word's number is no lane. No finiteness is asked of the terms: zero times any extended real is zero. -/
theorem hot_sum (w : BitVec 32) (f : Fin 512 → EReal) :
    ∑ i : Fin 512, Cert.PeSpec.hot w i * f i = if h : w.toNat < 512 then f ⟨w.toNat, h⟩ else 0 := by
  by_cases h : w.toNat < 512
  · rw [dif_pos h, Finset.sum_eq_single (⟨w.toNat, h⟩ : Fin 512)]
    · unfold Cert.PeSpec.hot
      rw [if_pos ((ofNat_eq_iff w ⟨w.toNat, h⟩).mpr rfl), one_mul]
    · intro i _ hi
      unfold Cert.PeSpec.hot
      rw [if_neg (fun e => hi (Fin.ext ((ofNat_eq_iff w i).mp e).symm)), zero_mul]
    · intro h'
      exact absurd (Finset.mem_univ _) h'
  · rw [dif_neg h]
    refine Finset.sum_eq_zero fun i _ => ?_
    unfold Cert.PeSpec.hot
    rw [if_neg (fun e => h (by rw [(ofNat_eq_iff w i).mp e]; exact i.isLt)), zero_mul]

/-! ## The operations at an index -/

/-- A [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The comparison bit of two words, widened to 32 bits and converted as a signed integer, is the real 1 when the
    words are equal and the real 0 when they are not. -/
theorem sitofp_cmpi_eq (x w : BitVec 32) :
    FloatOps.sitofp (F := Ideal) .f32 ((IntOp.cmpi .eq x w).setWidth 32) = if x = w then (1 : EReal) else 0 := by
  show ((((IntOp.cmpi .eq x w).setWidth 32).toInt : ℝ) : EReal) = _
  by_cases h : x = w
  · rw [if_pos h, IntOp.cmpi_eq.mpr h]
    have e : ((1#1 : BitVec 1).setWidth 32).toInt = 1 := by decide
    rw [e]; simp
  · rw [if_neg h, eq_zero_of_ne_one (fun e => h (IntOp.cmpi_eq.mp e))]
    have e : ((0#1 : BitVec 1).setWidth 32).toInt = 0 := by decide
    rw [e]; simp

/-- The one-hot matrix built from a column of words: at (j, i) it is the one-hot weight of lane i against the word
    of row j. The lane numbers are the second coordinate, the column is broadcast along it, the comparison bit is
    widened and converted, and the narrowing format change is the identity. -/
theorem onehot_apply (v1 : IVec ⟨2, ![512, 1]⟩ 32) (hi : (⟨2, ![512, 512]⟩ : Shape).Iotas .tc 32 [1])
    (hb : (⟨2, ![512, 1]⟩ : Shape).Broadcasts ⟨2, ![512, 512]⟩) (h1 : 1 < 32) (hbits : FTy.bits .bf16 < FTy.bits .f32)
    (j i : Fin 512) :
    (truncf .bf16 (sitofp (F := Ideal) .f32
        (extui 32 (cmpi .eq (iota .tc ⟨2, ![512, 512]⟩ 32 [1] hi) (broadcastTo ⟨2, ![512, 512]⟩ v1 hb)) h1)) hbits
      : FVec Ideal ⟨2, ![512, 512]⟩ .bf16) (ix2 j i)
      = Cert.PeSpec.hot (v1 (ix2 j (0 : Fin 1))) i := by
  show FloatOps.sitofp (F := Ideal) .f32
      ((IntOp.cmpi .eq (iota .tc ⟨2, ![512, 512]⟩ 32 [1] hi (ix2 j i)) (broadcastTo ⟨2, ![512, 512]⟩ v1 hb (ix2 j i))).setWidth 32) = _
  rw [iota_single_apply, broadcastTo_a1_ab_apply]
  exact sitofp_cmpi_eq _ _

/-- A product of an m × k by a k × n matrix into the zero accumulator, read at (a, b), is the sum over the
    contracted coordinate of the products of the entries. -/
theorem matmul_plain_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The body's product, with its own dimension numbers, at (a, b). -/
theorem dot_apply (A B : FVec Ideal S512x512 .bf16) (a b : Fin 512) :
    matmul dot_S512x512_S512x512_S512x512_1_0_0_1_n_n none A B (constant S512x512 .f32 0x00000000#32) (ix2 a b)
      = ∑ c : Fin 512, A (ix2 a c) * B (ix2 c b) :=
  matmul_plain_zero_apply _ none A B a b

/-! ## The stored value at one element -/

/-- The value the body stores, at row j and column d: the third block's element plus the two one-hot sums against
    the two table blocks. -/
theorem pay_apply (v0 : Vec Ideal S1x512x1 .i32) (v15 v18 : Vec Ideal S512x512 .bf16) (v22 : Vec Ideal S1x512x512 .f32)
    (j d : Fin 512) :
    k0_pay1 (F := Ideal) v0 v15 v18 v22 (ix3 (0 : Fin 1) j d)
      = v22 (ix3 (0 : Fin 1) j d)
        + ((∑ i : Fin 512, Cert.PeSpec.hot (v0 (ix3 (0 : Fin 1) j (0 : Fin 1))) i * v15 (ix2 i d))
           + (∑ i : Fin 512, Cert.PeSpec.hot (v0 (ix3 (0 : Fin 1) j (0 : Fin 1)) - 512#32) i * v18 (ix2 i d))) := by
  unfold k0_pay1
  dsimp only
  refine (shapeCast_ab_1ab_apply _ _ (0 : Fin 1) j d).trans ?_
  refine (addf_apply _ _ _).trans ?_
  refine congrArg₂ (· + ·) (shapeCast_1ab_ab_apply _ _ j d) ?_
  refine (addf_apply _ _ _).trans ?_
  refine congrArg₂ (· + ·) ?_ ?_
  · refine (dot_apply _ _ j d).trans ?_
    refine Finset.sum_congr rfl fun i _ => ?_
    refine congrArg₂ (· * ·) ?_ ?_
    · refine (onehot_apply _ _ _ _ _ j i).trans ?_
      exact congrArg (fun w => Cert.PeSpec.hot w i) (shapeCast_1ab_ab_apply _ _ j (0 : Fin 1))
    · exact congrFun (shapeCast_self _ _) _
  · refine (dot_apply _ _ j d).trans ?_
    refine Finset.sum_congr rfl fun i _ => ?_
    refine congrArg₂ (· * ·) ?_ ?_
    · refine (onehot_apply _ _ _ _ _ j i).trans ?_
      refine congrArg (fun w => Cert.PeSpec.hot w i) ?_
      show shapeCast S512x1 v0 _ (ix2 j (0 : Fin 1)) - 512#32 = _
      exact congrArg (· - 512#32) (shapeCast_1ab_ab_apply _ _ j (0 : Fin 1))
    · exact congrFun (shapeCast_self _ _) _

end Cert.KernelIdeal.PayValue

end
-- ==== Proof.Bridge.lean ====
/-
  From the rank to the table row the two one-hot selections read.

  Within a tile of 512 positions the rank grows by at most one per position from the tile's first rank `r0`, so with
  `k = r0 / 512` the relative rank `rel = r - 512 k` lies in `0 … 1022`. If `rel < 512` the first one-hot row selects
  row `rel` of table block `k`, and the second, against `rel - 512`, which wraps to a word of at least 512, selects
  nothing. If `rel ≥ 512` the first selects nothing and the second selects row `rel - 512` of block `k + 1`; then
  `k ≤ 2` because `r ≤ 2047`, so the cap at 3 leaves `k + 1`. Either way the selected table row is `r` itself. Where
  the mask is not set the word is all ones, neither row has a 1, and both sums are 0.
-/
import proofs.«129515_j39041252721255_2_alg».proof.Proof.PeSpec
import proofs.«129515_j39041252721255_2_alg».proof.Proof.RankFacts
import proofs.«129515_j39041252721255_2_alg».proof.Proof.PayValue
import Mathlib

namespace Cert.PeSpec

open Idealize.ShloMosaic Idealize.ShloMosaic.ValueIdx

open scoped BigOperators

/-- A one-hot row against a word of at least 512 has no 1: the weighted sum is 0. -/
theorem hot_sum_big (w : BitVec 32) (f : Fin 512 → EReal) (h : 512 ≤ w.toNat) :
    ∑ i : Fin 512, hot w i * f i = 0 := by
  rw [Cert.KernelIdeal.PayValue.hot_sum, dif_neg (by omega)]

/-- A one-hot row against a word below 512 selects that lane's term. -/
theorem hot_sum_small (w : BitVec 32) (f : Fin 512 → EReal) (h : w.toNat < 512) :
    ∑ i : Fin 512, hot w i * f i = f ⟨w.toNat, h⟩ := by
  rw [Cert.KernelIdeal.PayValue.hot_sum, dif_pos h]

/-- Signed comparison with a small word on the right: for a word that is small as a natural number, it is the
    comparison of naturals. -/
theorem slt_small (a c : BitVec 32) (ha : a.toNat < 2 ^ 31) (hc : c.toNat < 2 ^ 31) :
    a.slt c = decide (a.toNat < c.toNat) := by
  have hai : a.toInt = (a.toNat : Int) := by rw [BitVec.toInt_eq_toNat_cond]; split <;> omega
  have hci : c.toInt = (c.toNat : Int) := by rw [BitVec.toInt_eq_toNat_cond]; split <;> omega
  rw [BitVec.slt, hai, hci]
  congr 1
  exact propext Int.ofNat_lt

/-- The next block's number, capped at 3. -/
theorem minsi_succ_toNat (w : BitVec 32) (h : w.toNat ≤ 3) :
    (Scalar.minsi (Scalar.addi w 1#32) 3#32).toNat = min (w.toNat + 1) 3 := by
  have h1 : (w + 1#32).toNat = w.toNat + 1 := by
    rw [BitVec.toNat_add]
    have : (1#32 : BitVec 32).toNat = 1 := rfl
    rw [this]; omega
  have h3 : (3#32 : BitVec 32).toNat = 3 := rfl
  show (if (w + 1#32).slt 3#32 then w + 1#32 else 3#32).toNat = _
  rw [slt_small _ _ (by omega) (by omega), h1, h3]
  by_cases hlt : w.toNat + 1 < 3
  · rw [if_pos (by simpa using hlt), h1]; omega
  · rw [if_neg (by simpa using hlt), h3]; omega

/-- The next block's number, capped at 3, is at most 3. -/
theorem kw_succ_le (w : BitVec 32) (h : w.toNat ≤ 3) : (Scalar.minsi (Scalar.addi w 1#32) 3#32).toNat ≤ 3 := by
  rw [minsi_succ_toNat w h]; omega

/-- The block number of a rank is at most 3. -/
theorem kw_le (mask : IVec SB 1) (b : Fin 32) (t : Fin 2048) : (fdiv512 (rank mask (ix2 b t))).toNat ≤ 3 := by
  have hr := rank_le mask b t
  rw [fdiv512_eq _ hr, BitVec.toNat_ofNat]
  omega

/-- The two one-hot selections, for a rank `r ≤ 2047` and the rank `r0` at the start of its tile of 512 positions,
    `r0 ≤ r ≤ r0 + 511`: with `k = r0 / 512` the relative rank `r - 512 k` is in `0 … 1022`; below 512 the first
    row selects row `r - 512 k` of block `k` and the second nothing; from 512 on the first selects nothing and the
    second row `r - 512 k - 512` of block `k + 1 ≤ 3`. Either way the selected table row is `r`. -/
theorem gather_core (pe : ℕ → Fin 512 → EReal) (d : Fin 512) (r r0 : BitVec 32)
    (hr : r.toNat ≤ 2047) (h0 : r0.toNat ≤ r.toNat) (h1 : r.toNat ≤ r0.toNat + 511) :
    (∑ i : Fin 512, hot (r - BitVec.ofNat 32 (r0.toNat / 512) * 512#32) i
        * pe (512 * (BitVec.ofNat 32 (r0.toNat / 512)).toNat + i.val) d)
      + (∑ i : Fin 512, hot (r - BitVec.ofNat 32 (r0.toNat / 512) * 512#32 - 512#32) i
        * pe (512 * (Scalar.minsi (Scalar.addi (BitVec.ofNat 32 (r0.toNat / 512)) 1#32) 3#32).toNat + i.val) d)
      = pe r.toNat d := by
  have e512 : (512#32 : BitVec 32).toNat = 512 := rfl
  generalize hk : r0.toNat / 512 = k
  have hk3 : k ≤ 3 := by omega
  have hkw : (BitVec.ofNat 32 k).toNat = k := by rw [BitVec.toNat_ofNat]; omega
  generalize BitVec.ofNat 32 k = kw at hkw
  have hkm : (kw * 512#32).toNat = 512 * k := by rw [BitVec.toNat_mul, hkw, e512]; omega
  have hrel : (r - kw * 512#32).toNat = r.toNat - 512 * k := by
    rw [BitVec.toNat_sub, hkm]; omega
  generalize r - kw * 512#32 = rel at hrel
  have hsucc := minsi_succ_toNat kw (by omega)
  rw [hkw] at hsucc
  by_cases hlt : rel.toNat < 512
  · have hrel2 : 512 ≤ (rel - 512#32).toNat := by rw [BitVec.toNat_sub, e512]; omega
    rw [hot_sum_small _ _ hlt, hot_sum_big _ _ hrel2, add_zero, hkw]
    show pe (512 * k + rel.toNat) d = _
    congr 1; omega
  · have hrel2 : (rel - 512#32).toNat = rel.toNat - 512 := by rw [BitVec.toNat_sub, e512]; omega
    rw [hot_sum_big _ _ (by omega), hot_sum_small _ _ (by omega : (rel - 512#32).toNat < 512), zero_add, hsucc]
    show pe (512 * min (k + 1) 3 + (rel - 512#32).toNat) d = _
    congr 1; omega

/-- For a rank in `0 … 2047` the wrapped read position is the rank itself. -/
theorem wrap_rank (x : BitVec 32) (h : x.toNat ≤ 2047) :
    min (Scalar.select (IntOp.cmpi .slt x 0#32) (IntOp.addi x 2048#32) x).toInt.toNat 2047 = x.toNat := by
  have hs : x.slt 0#32 = false := by
    rw [slt_small _ _ (by omega) (by decide)]
    simp
  have hc : IntOp.cmpi .slt x 0#32 = 0#1 := by
    show BitVec.ofBool (x.slt 0#32) = _
    rw [hs]; rfl
  have hxi : x.toInt = (x.toNat : Int) := by rw [BitVec.toInt_eq_toNat_cond]; split <;> omega
  rw [hc]
  show min (if (0#1 : BitVec 1) = 1 then _ else x).toInt.toNat 2047 = _
  rw [if_neg (by decide), hxi, Int.toNat_natCast]
  omega

/-- The two one-hot selections add up to the table row of the position's rank where the mask is set, and to 0 where it is not. -/
theorem gather_eq (mask : IVec SB 1) (pe : ℕ → Fin 512 → EReal) (b : Fin 32) (s : Fin 2048) (d : Fin 512) :
    let kw : BitVec 32 := fdiv512 (rank mask (ix2 b ⟨512 * (s.val / 512), by omega⟩))
    let relm : BitVec 32 := Scalar.select (mask (ix2 b s)) (rank mask (ix2 b s) - kw * 512#32) 4294967295#32
    (∑ i : Fin 512, hot relm i * pe (512 * kw.toNat + i.val) d)
      + (∑ i : Fin 512, hot (relm - 512#32) i * pe (512 * (Scalar.minsi (Scalar.addi kw 1#32) 3#32).toNat + i.val) d)
      = if mask (ix2 b s) = 1#1 then pe (min (Scalar.select (IntOp.cmpi .slt (rank mask (ix2 b s)) 0#32) (IntOp.addi (rank mask (ix2 b s)) 2048#32) (rank mask (ix2 b s))).toInt.toNat 2047) d else 0 := by
  intro kw relm
  have hs := s.isLt
  have hr := rank_le mask b s
  have hr0 := rank_le mask b ⟨512 * (s.val / 512), by omega⟩
  have hstep := rank_step mask b ⟨512 * (s.val / 512), by omega⟩ s (by show 512 * (s.val / 512) ≤ s.val; omega)
  have hkw : kw = BitVec.ofNat 32 ((rank mask (ix2 b ⟨512 * (s.val / 512), by omega⟩)).toNat / 512) := fdiv512_eq _ hr0
  by_cases hm : mask (ix2 b s) = 1#1
  · have hrelm : relm = rank mask (ix2 b s) - kw * 512#32 := by
      show (if mask (ix2 b s) = 1 then _ else _) = _
      rw [if_pos (show mask (ix2 b s) = 1 from hm)]
    rw [if_pos hm, wrap_rank _ hr]
    clear_value relm
    subst hrelm
    clear_value kw
    subst hkw
    refine gather_core pe d _ _ hr hstep.1 ?_
    have h2 := hstep.2
    change _ ≤ _ + (s.val - 512 * (s.val / 512)) at h2
    omega
  · have hrelm : relm = 4294967295#32 := by
      show (if mask (ix2 b s) = 1 then _ else _) = _
      rw [if_neg (show ¬ mask (ix2 b s) = 1 from hm)]
    rw [if_neg hm, hrelm, hot_sum_big _ _ (by decide), hot_sum_big _ _ (by decide), add_zero]

end Cert.PeSpec
-- ==== Proof.KFrame.lean ====
/-
  The frame of the whole program. The host operations before the region run first (nine stretches, the outlined
  functions' bodies among them) and leave the buffers at the region-entry contents; the prefetched table there is
  the block-number table, whose every word is at most 3 because a rank is at most 2047 — so block k and block
  min(k + 1, 3) both lie inside the table of four blocks of 512 rows, whole rows of it, and the pipeline's side
  condition on the table holds for every launch. The region then runs as the body's obligation allows, and the three
  argument arrays end as launched: the first is only read by its window, the other two never enter the region.
-/
import proofs.«129515_j39041252721255_2_alg».proof.Proof.KRun
import proofs.«129515_j39041252721255_2_alg».proof.Proof.KHost
import proofs.«129515_j39041252721255_2_alg».proof.Proof.Bridge
import Idealize.ShloMosaic.Lib.Pipeline.Kit

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.Kernel Cert.Kernel.Gen

variable {F : FTy → Type} [FloatOps F]

local notation "𝕄" => MT nD τ sig Unit (Elt F) ℕ (UR sig nD τ) ℕ

open Cert.Kernel.Hst Idealize.ShloMosaic.ValueIdx

variable (m : (ℓ : Loc nD τ sig) → Buf (Elt F) ℓ) (ρ : Dev nD → PrngReg)

/-- @main up to the region: the stretches of host operations, then the region, holding the buffers at `Hst.V`. -/
theorem hmain (𝒱₀ : Variants) :
    HMainP (Ix := Unit) (Name := ℕ) (U := UR sig nD τ) (Lvl := ℕ) pcfgs (0 : Fin 1) defs₀ 𝒱₀ m (main (F := F)) (Hst.V m) :=
  hmainP_prefixes pcfgs 0 defs₀ 𝒱₀ m main [hostOps0, hostOps0_1, hostOps0_2, hostOps0_3, hostOps0_4, hostOps0_5, hostOps0_6, hostOps0_7, hostOps0_8]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩)
    main_chain

/-- The table's contents when the region is entered (the program runs on one device). -/
def tbl : pre0.Contents (Elt F) := fun j => Hst.V m (0 : Dev nD) (pre0.ref j)
theorem V_pre (c : Dev nD) (j : Fin 1) : Hst.V m c (pre0.ref j) = tbl m j := by
  obtain rfl : c = 0 := Subsingleton.elim _ _; rfl

/-- Every word of the table is a block number 0 … 3. -/
theorem tbl_le (x : S32x4.Idx) : (tbl m 0 x).toNat ≤ 3 := by
  have e : (tbl m 0 : S32x4.Idx → BitVec 32) = kTab (m (((0 : Dev nD) : Thread nD τ).loc main_arg1)) := V_main_v8 m 0
  obtain ⟨b, t, rfl⟩ : ∃ (b : Fin 32) (t : Fin 4), x = ix2 b t := ⟨x 0, x 1, eq_ix2 x⟩
  rw [e, kTab_apply]
  exact Cert.PeSpec.kw_le _ _ _

/-- A block of 512 whole rows at block number 0 … 3 lies inside the 2048-row table, on whole words. -/
theorem blockOkN : ∀ k : Fin 4, ∃ h : (∀ x, ((![k.val, 0] : Fin 2 → Nat) x + 1) * S512x512.size x ≤ S2048x512.size x),
    EltTy.bits .bf16 = 32 ∨ (Rect.block (s := S2048x512) S512x512.size ![k.val, 0] h).WholeWords (EltTy.packing .bf16) := by
  decide

theorem blockOk (idx : Fin 2 → Nat) (w : BitVec 32) (hw : w.toNat ≤ 3) (e : idx = ![w.toNat, 0]) :
    ∃ h : (∀ x, (idx x + 1) * S512x512.size x ≤ S2048x512.size x),
      EltTy.bits .bf16 = 32 ∨ (Rect.block (s := S2048x512) S512x512.size idx h).WholeWords (EltTy.packing .bf16) := by
  subst e
  exact blockOkN ⟨w.toNat, by omega⟩

/-- The pipeline's side condition on the table's contents. -/
theorem ok : ok0 (F := F) (tbl m) := by
  constructor
  · intro i
    obtain ⟨w, hw, e⟩ : ∃ w : BitVec 32, w.toNat ≤ 3 ∧ cc0_transform_2 k0_off1_inb numel1_S1x1 (tbl m) i = ![w.toNat, 0] :=
      ⟨_, tbl_le m _, rfl⟩
    exact blockOk _ w hw e
  · intro i
    obtain ⟨w, hw, e⟩ : ∃ w : BitVec 32, w.toNat ≤ 3
        ∧ cc0_transform_3 k0_off1_inb numel1_S1x1 (tbl m) i = ![(Scalar.minsi (Scalar.addi w 1#32) 3#32).toNat, 0] :=
      ⟨_, tbl_le m _, rfl⟩
    exact blockOk _ _ (Cert.PeSpec.kw_succ_le w hw) e

/-- The table's contents as admissible contents. -/
abbrev adm : (pcfg0 (F := F)).Adm := ⟨tbl m, ok m⟩

/-- The program's run: the output array at the write-backs of the body's results, everything else as the region found it. -/
theorem run : θ_run defs (onTc (τ := τ) (main (F := F))) (s₀ m ρ)
    (FramePost (pin pcfgs fun _ => adm m) (dats (adm m) (Hst.V m)) 0 (Hst.V m)) :=
  run_main (adm m) (Hst.V m) m ρ (hmain m Variants.none) (V_pre m)

/-- THE FRAME: every weakly fair execution terminates, nothing faults, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats (adm m) (Hst.V m) 0 c).arrAt_in 0 rfl _).trans ((A_eq (adm m) (Hst.V m) c 0).trans (V_main_arg0 m c))),
      ((h c).2 main_arg1 (by decide : main_arg1 ∈ restRefs sig spec0)).trans (V_main_arg1 m c),
      ((h c).2 main_arg2 (by decide : main_arg2 ∈ restRefs sig spec0)).trans (V_main_arg2 m c)⟩) (run m ρ)

end Cert.Kernel.Fr

end
-- ==== Proof.KIBody.lean ====
/-
  One grid point of the kernel. The grid has 32 x 4 points; at point (b, s) the body is handed five staging
  buffers: rows 512 s ... 512 s + 511 of sequence b (a [1, 512, 512] block), the same rows of the relative-rank
  column (a [1, 512, 1] block of integer words), two [512, 512] blocks of the table chosen by the prefetched word
  k(b, s) — block k and block min(k + 1, 3) — and the output block. It loads the four inputs whole, computes one
  value from them, and stores it over the whole output block. Nothing else is touched, nothing is kept between points.
  Everything here is stated for ANY admissible contents `a` of the prefetched table and ANY contents `V` of the
  buffers at the region's entry, so that no fact below depends on what the host computed before the region.
-/
import proofs.«129515_j39041252721255_2_alg».proof.Proof.Gen.KernelIdeal.Launch
import proofs.«129515_j39041252721255_2_alg».proof.Proof.Gen.KernelIdeal.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (a : (pcfg0 (F := F)).Adm)
  (V : (c : Dev nD) → (b : Ref sig .tc) → Buf (Elt F) ((c : Thread nD τ).loc b))

/-- The pipeline at the table contents `a`. -/
abbrev cfgA : Pipeline.Cfg sig Λ₀ := cfg0 a

/-! ## The windows' blocks -/

/-- Window `w`'s block at point `t`, read off its array as the region finds it. -/
def iblk (c : Dev nD) (w : Fin (cfgA a).W) (t : Fin (cfgA a).N) :
    (((cfgA a).win w).xblock ((cfgA a).grid.coords t)).Idx → Elt F ((cfgA a).win w).elt :=
  (((cfgA a).win w).blk t).view.read (Elt F) (V c (Pipeline.arrRef spec0 w))

/-- An input window's current staging buffer holds its block at every point, fetched there or not: a point that does
    not fetch has the block index of the point before, and the body leaves the block in place. -/
theorem before0_0_of {c : Dev nD} (dat : Dat τ (Elt F) Unit ℕ (UR sig nD τ) ℕ (cfgA a) c) (hA : dat.A 0 = V c (Pipeline.arrRef spec0 0))
    (hafter : ∀ t, dat.after 0 t = iblk a V c 0 t) (t : Fin (cfgA a).N) (d) : dat.before 0 t d = iblk a V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfgA a) c) (hA : dat.A 1 = V c (Pipeline.arrRef spec0 1))
    (hafter : ∀ t, dat.after 1 t = iblk a V c 1 t) (t : Fin (cfgA a).N) (d) : dat.before 1 t d = iblk a V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ (cfgA a) c) (hA : dat.A 2 = V c (Pipeline.arrRef spec0 2))
    (hafter : ∀ t, dat.after 2 t = iblk a V c 2 t) (t : Fin (cfgA a).N) (d) : dat.before 2 t d = iblk a V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ (cfgA a) c) (hA : dat.A 3 = V c (Pipeline.arrRef spec0 3))
    (hafter : ∀ t, dat.after 3 t = iblk a V c 3 t) (t : Fin (cfgA a).N) (d) : dat.before 3 t d = iblk a V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each the whole of its buffer -/

abbrev rSeq : Rect S1x512x512 := Rect.unit (s := S1x512x512) ![0, 0, 0] S1x512x512.size inb_S1x512x512_S1x512x512_0_0_0
abbrev rRel : Rect S1x512x1 := Rect.unit (s := S1x512x1) ![0, 0, 0] S1x512x1.size inb_S1x512x1_S1x512x1_0_0_0
abbrev rTab : Rect S512x512 := Rect.unit (s := S512x512) ![0, 0] S512x512.size inb_S512x512_S512x512_0_0

/-- The output block after the body, from the four input blocks: its one store read back. -/
def out0_4 (x0 : Vec F S1x512x512 .f32) (x1 : Vec F S1x512x1 .i32) (x2 x3 : Vec F S512x512 .bf16) : Vec F S1x512x512 .f32 :=
  View.canon [⟨rSeq, k0_pay1 (View.ld x1 rRel) (View.ld x2 rTab) (View.ld x3 rTab) (View.ld x0 rSeq)⟩]

/-- The one store is of the whole block, so it covers it. -/
theorem cover0_4 (p0 : Vec F S1x512x512 .f32) (y : S1x512x512.Idx) :
    ∃ pc ∈ ([⟨rSeq, p0⟩] : List (View.Piece (Elt F) S1x512x512 .f32)), y ∈ pc.1.set :=
  View.cover_of_tiled [⟨rSeq, p0⟩] S1x512x512.size (by rfl) y

/-! ## The body's triple -/

set_option maxHeartbeats 1000000 in
/-- The body on whole staging memrefs, the inputs' at contents `x0 … x3` and the output's at anything, runs to the
    continuation holding the inputs' as they were and the output's at `out0_4` of them. The table's memref is passed
    to the body and never accessed. -/
theorem sound_kernel (c : Dev nD) (E : Set ℕ) (i : grid0.Coords) (arg2 : Memref sig .tc .smem S32x4 .i32) (harg2 : arg2.IsWhole)
    (arg3 : Memref sig .tc .vmem S1x512x512 .f32) (harg3 : arg3.IsWhole) (arg4 : Memref sig .tc .vmem S1x512x1 .i32) (harg4 : arg4.IsWhole)
    (arg5 : Memref sig .tc .vmem S512x512 .bf16) (harg5 : arg5.IsWhole) (arg6 : Memref sig .tc .vmem S512x512 .bf16) (harg6 : arg6.IsWhole)
    (arg7 : Memref sig .tc .vmem S1x512x512 .f32) (harg7 : arg7.IsWhole)
    (x0 : Vec F S1x512x512 .f32) (x1 : Vec F S1x512x1 .i32) (x2 x3 : Vec F S512x512 .bf16) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (out0_4 x0 x1 x2 x3)) -∗ K ⟨⟩))
      ⊢ wp frame (wpE (defs₀ (F := F)) Variants.none c none) E (cc0__pe_gather_kernel i arg2 harg2 arg3 harg3 arg4 harg4 arg5 harg5 arg6 harg6 arg7 harg7) K := by
  simp only [cc0__pe_gather_kernel_eq_skeleton]; unfold cc0__pe_gather_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- Each window's current staging memref at point `t`, as the pipeline passes it to the body, and its wholeness. -/
abbrev ms0_0 (t : Fin (cfgA a).N) : Memref sig .tc .vmem S1x512x512 .f32 := spec0_0.stage ((cfgA a).slots t 0)
abbrev hs0_0 (t : Fin (cfgA a).N) : (ms0_0 a t).IsWhole := hstage0_0 (((cfgA a).slots t 0).cast nbuf0_0)
abbrev ms0_1 (t : Fin (cfgA a).N) : Memref sig .tc .vmem S1x512x1 .i32 := spec0_1.stage ((cfgA a).slots t 1)
abbrev hs0_1 (t : Fin (cfgA a).N) : (ms0_1 a t).IsWhole := hstage0_1 (((cfgA a).slots t 1).cast nbuf0_1)
abbrev ms0_2 (t : Fin (cfgA a).N) : Memref sig .tc .vmem S512x512 .bf16 := spec0_2.stage ((cfgA a).slots t 2)
abbrev hs0_2 (t : Fin (cfgA a).N) : (ms0_2 a t).IsWhole := hstage0_2 (((cfgA a).slots t 2).cast nbuf0_2)
abbrev ms0_3 (t : Fin (cfgA a).N) : Memref sig .tc .vmem S512x512 .bf16 := spec0_3.stage ((cfgA a).slots t 3)
abbrev hs0_3 (t : Fin (cfgA a).N) : (ms0_3 a t).IsWhole := hstage0_3 (((cfgA a).slots t 3).cast nbuf0_3)
abbrev ms0_4 (t : Fin (cfgA a).N) : Memref sig .tc .vmem S1x512x512 .f32 := spec0_4.stage ((cfgA a).slots t 4)
abbrev hs0_4 (t : Fin (cfgA a).N) : (ms0_4 a t).IsWhole := hstage0_4 (((cfgA a).slots t 4).cast nbuf0_4)

/-- The kernel body at point `t`, on what the pipeline calls it with. -/
abbrev bodyAt0 (t : Fin (cfgA a).N) : Prog (TpuEff nD τ sig (Elt F) Λ₀ .tc) PUnit :=
  cc0__pe_gather_kernel (grid0.coords t) (Memref.whole main_v8) (Memref.isWhole_whole _) (ms0_0 a t) (hs0_0 a t) (ms0_1 a t) (hs0_1 a t)
    (ms0_2 a t) (hs0_2 a t) (ms0_3 a t) (hs0_3 a t) (ms0_4 a t) (hs0_4 a t)

/-- The proof data on core `c`: the arrays as the region finds them; after the body at point `t` each input's
    buffer at its block and the output's at `out0_4` of the input blocks; the invariant the scoped rest, the generator
    register and the table's half; nothing owed. The converted table is read by TWO windows, so each holds HALF of it;
    every other input array is held whole. -/
def dats (_ : Fin 1) (c : Dev nD) : Dat τ (Elt F) Unit ℕ (UR sig nD τ) ℕ (cfgA a) c where
  A w := V c (Pipeline.arrRef spec0 w)
  after w t := match w with
    | ⟨0, _⟩ => iblk a V c 0 t
    | ⟨1, _⟩ => iblk a V c 1 t
    | ⟨2, _⟩ => iblk a V c 2 t
    | ⟨3, _⟩ => iblk a V c 3 t
    | ⟨4, _⟩ => out0_4 (iblk a V c 0 t) (iblk a V c 1 t) (iblk a V c 2 t) (iblk a V c 3 t)
  Φ _ := iprop(Pipeline.ΦA spec0 c ∗ Pipeline.ΦT pre0 a.1 c)
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin (cfgA a).W) : (dats a V 0 c).A w = V c (Pipeline.arrRef spec0 w) := by
  dsimp only [dats]

theorem after0_0 (c : Dev nD) (t : Fin (cfgA a).N) : (dats a V 0 c).after 0 t = iblk a V c 0 t := by dsimp only [dats]; try rfl
theorem after0_1 (c : Dev nD) (t : Fin (cfgA a).N) : (dats a V 0 c).after 1 t = iblk a V c 1 t := by dsimp only [dats]; try rfl
theorem after0_2 (c : Dev nD) (t : Fin (cfgA a).N) : (dats a V 0 c).after 2 t = iblk a V c 2 t := by dsimp only [dats]; try rfl
theorem after0_3 (c : Dev nD) (t : Fin (cfgA a).N) : (dats a V 0 c).after 3 t = iblk a V c 3 t := by dsimp only [dats]; try rfl
theorem after0_4 (c : Dev nD) (t : Fin (cfgA a).N) :
    (dats a V 0 c).after 4 t = out0_4 (iblk a V c 0 t) (iblk a V c 1 t) (iblk a V c 2 t) (iblk a V c 3 t) := by dsimp only [dats]; try rfl

theorem before0_0 (c : Dev nD) (t : Fin (cfgA a).N) (d) : (dats a V 0 c).before 0 t d = iblk a V c 0 t :=
  before0_0_of a V (dats a V 0 c) (A_eq a V c 0) (after0_0 a V c) t d
theorem before0_1 (c : Dev nD) (t : Fin (cfgA a).N) (d) : (dats a V 0 c).before 1 t d = iblk a V c 1 t :=
  before0_1_of a V (dats a V 0 c) (A_eq a V c 1) (after0_1 a V c) t d
theorem before0_2 (c : Dev nD) (t : Fin (cfgA a).N) (d) : (dats a V 0 c).before 2 t d = iblk a V c 2 t :=
  before0_2_of a V (dats a V 0 c) (A_eq a V c 2) (after0_2 a V c) t d
theorem before0_3 (c : Dev nD) (t : Fin (cfgA a).N) (d) : (dats a V 0 c).before 3 t d = iblk a V c 3 t :=
  before0_3_of a V (dats a V 0 c) (A_eq a V c 3) (after0_3 a V c) t d

/-! ## The body obligation, at a generic point -/

def bodyPre (c : Dev nD) (t : Fin (cfgA a).N) : sProp 𝕄 :=
  iprop((dats a V 0 c).Φ t.castSucc ∗ (dats a V 0 c).owesAt () t.castSucc
    ∗ (∃ d, owns (c : Thread nD τ) (ms0_0 a t) fullShare ((dats a V 0 c).before 0 t d))
    ∗ (∃ d, owns (c : Thread nD τ) (ms0_1 a t) fullShare ((dats a V 0 c).before 1 t d))
    ∗ (∃ d, owns (c : Thread nD τ) (ms0_2 a t) fullShare ((dats a V 0 c).before 2 t d))
    ∗ (∃ d, owns (c : Thread nD τ) (ms0_3 a t) fullShare ((dats a V 0 c).before 3 t d))
    ∗ (∃ d, owns (c : Thread nD τ) (ms0_4 a t) fullShare ((dats a V 0 c).before 4 t d)))

def bodyPost (c : Dev nD) (t : Fin (cfgA a).N) : sProp 𝕄 :=
  iprop((dats a V 0 c).Φ t.succ ∗ (dats a V 0 c).owesAt () t.succ
    ∗ owns (c : Thread nD τ) (ms0_0 a t) fullShare ((dats a V 0 c).after 0 t)
    ∗ owns (c : Thread nD τ) (ms0_1 a t) fullShare ((dats a V 0 c).after 1 t)
    ∗ owns (c : Thread nD τ) (ms0_2 a t) fullShare ((dats a V 0 c).after 2 t)
    ∗ owns (c : Thread nD τ) (ms0_3 a t) fullShare ((dats a V 0 c).after 3 t)
    ∗ owns (c : Thread nD τ) (ms0_4 a t) fullShare ((dats a V 0 c).after 4 t))

/-- The body at any point: the inputs' memrefs hold their blocks, so the triple applies; the invariant and what the
    core owes pass through unread. -/
theorem sound_body (c : Dev nD) (t : Fin (cfgA a).N) :
    bodyPre a V c t ⊢ wp frame (wpE (defs₀ (F := F)) Variants.none c none) Set.univ (bodyAt0 a t) (fun _ => bodyPost a V c t) := by
  unfold bodyPre bodyPost bodyAt0
  simp only [before0_0, before0_1, before0_2, before0_3]
  rw [show (dats a V 0 c).Φ t.succ = (dats a V 0 c).Φ t.castSucc from rfl,
    show (dats a V 0 c).owesAt () t.succ = (dats a V 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ _ _ (iblk a V c 0 t) (iblk a V c 1 t) (iblk a V c 2 t) (iblk a V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) a V 0 c) (defs₀ (F := F)) Variants.none () Set.univ := fun t => by
  rw [bigSep_W0, bigSep_W0]
  exact sound_body a V c t

end Cert.KernelIdeal.Fr

end
-- ==== Proof.KIRun.lean ====
/-
  The region's run. The five windows stand on FOUR arrays: the two table windows read one converted table. At the
  region's entry that table's buffer, held whole, is split in two halves, one per window (a read needs any share,
  and nothing writes the table); every other array is held whole by its one window. From there the launch is the
  library's: every weakly fair execution of the program terminates, the output array ends at the write-backs of
  what the body left at each point, and every buffer the region does not stage ends as the region found it.
-/
import proofs.«129515_j39041252721255_2_alg».proof.Proof.KIBody
import Idealize.ShloMosaic.Lib.Pipeline.Kit

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.KernelIdeal Cert.KernelIdeal.Gen

variable {F : FTy → Type} [FloatOps F]

local notation "𝕄" => MT nD τ sig Unit (Elt F) ℕ (UR sig nD τ) ℕ

variable (a : (pcfg0 (F := F)).Adm)
  (V : (c : Dev nD) → (b : Ref sig .tc) → Buf (Elt F) ((c : Thread nD τ).loc b))

/-- The buffers behind the windows' arrays, one by one: four, since two windows read the converted table. -/
theorem arrBufs_eq (c : Dev nD) : (arrBufs spec0 c (V c) : sProp 𝕄)
    = iprop((((c.tc : Thread nD τ).loc main_arg0) ↦{fullShare} V c main_arg0) ∗ (((c.tc : Thread nD τ).loc main_v16) ↦{fullShare} V c main_v16)
        ∗ (((c.tc : Thread nD τ).loc main_v17) ↦{fullShare} V c main_v17) ∗ (((c.tc : Thread nD τ).loc main_v18) ↦{fullShare} V c main_v18)) := by
  unfold arrBufs
  rw [show Finset.univ.image (arrRef spec0) = ({main_arg0, main_v16, main_v17, main_v18} : Finset (Ref sig .tc)) from by decide,
    bigSep_insert (by decide), bigSep_insert (by decide), bigSep_insert (by decide), bigSep_singleton]
  rfl

/-- The proof data's arrays at entry, one by one: the converted table in two halves. -/
theorem arrays0_eq (c : Dev nD) : ((dats a V 0 c).arrays ((dats a V 0 c).arrAt · 0) : sProp 𝕄)
    = iprop((((c.tc : Thread nD τ).loc main_arg0) ↦{fullShare} V c main_arg0) ∗ (((c.tc : Thread nD τ).loc main_v16) ↦{fullShare} V c main_v16)
        ∗ (((c.tc : Thread nD τ).loc main_v17) ↦{fullShare.left} V c main_v17) ∗ (((c.tc : Thread nD τ).loc main_v17) ↦{fullShare.right} V c main_v17)
        ∗ (((c.tc : Thread nD τ).loc main_v18) ↦{fullShare} V c main_v18)) := by
  unfold Dat.arrays
  rw [bigSep_W0, (arr_whole0 0).set_eq_univ, (arr_whole0 1).set_eq_univ, (arr_whole0 2).set_eq_univ, (arr_whole0 4).set_eq_univ]
  rfl

/-- The four buffers behind the five windows' arrays, each whole, make the proof data's arrays at entry. -/
theorem hsplit (c : Dev nD) :
    (arrBufs (cfgA a).spec c (V c) : sProp 𝕄) ⊢ (dats a V 0 c).arrays ((dats a V 0 c).arrAt · 0) := by
  rw [arrays0_eq, show (arrBufs (cfgA a).spec c (V c) : sProp 𝕄) = arrBufs spec0 c (V c) from rfl, arrBufs_eq]
  iintro ⟨H0, H1, H2, H4⟩
  ihave H2' := (pointsTo_share (PosShare.mem_left_op_right fullShare)).1 $$ H2
  icases H2' with ⟨H2, H3⟩
  isplitl [H0]; · iexact H0
  isplitl [H1]; · iexact H1
  isplitl [H2]; · iexact H2
  isplitl [H3]; · iexact H3
  iexact H4

/-! ## The run -/

set_option backward.isDefEq.respectTransparency.types false in
/-- From any memory with zero counters whose host prefix leaves the buffers at `V` (`hmain`) with the table at `a`
    (`hpf`): every weakly fair execution terminates, every array of the pipeline ends at what the write-backs of the
    proof data leave, and every other unscoped buffer — the table too — as the region found it. -/
theorem run_main (m : (ℓ : Loc nD τ sig) → Buf (Elt F) ℓ) (ρ : Dev nD → PrngReg)
    (hmain : HMainP (Ix := Unit) (Name := ℕ) (U := UR sig nD τ) (Lvl := ℕ) pcfgs (0 : Fin 1) defs₀ Variants.none m (main (F := F)) V)
    (hpf : ∀ c k, V c (pre0.ref k) = a.1 k) :
    θ_run defs (onTc (τ := τ) (main (F := F))) (s₀ m ρ) (FramePost (pin pcfgs fun _ => a) (dats a V) 0 V) := by
  classical
  exact θ_run_region_pf pcfgs (fun _ => a) (dats a V) () (cellOf_inj (fun _ => a)) (0 : Fin 1) winFacts₀0 (OwnSemFacts.none _) preFacts0 emb₁ defs₀ Variants.none m ρ main
    (fun c => (body_obligation a V c).loose)
    block_pos0 arr_whole0 stage_whole0 (fun _ _ => rfl)
    (G := fun _ => iprop(emp)) (u₀ := initOf (cells (pin pcfgs fun _ => a) (cellOf_inj fun _ => a)) (launchToks (pin pcfgs fun _ => a) (cellOf_inj fun _ => a)))
    (hu₀ := by
      iintro Hu; imodintro
      isplitl [Hu]; · iapply (show (ownU _ : sProp 𝕄) ⊢ BI.own (emb₁ (initOf (cells (pin pcfgs fun _ => a) (cellOf_inj fun _ => a)) (launchToks (pin pcfgs fun _ => a) (cellOf_inj fun _ => a)))) from .rfl); iexact Hu
      iapply (show (BI.emp : sProp 𝕄) ⊢ bigSep Finset.univ (fun _ : Dev nD => (BI.emp : sProp 𝕄)) from by rw [BI.bigSep_emp_const])
      iempintro)
    (V := V) (hmain := hmain)
    (hsplit := hsplit a V)
    (hpf := hpf)
    (X := fun c => iprop(∃ r, prngReg c r)) (Y := fun c => iprop(∃ r, prngReg c r))
    (Z := fun c => unscopedRestP (Ix := Unit) (Name := ℕ) (U := UR sig nD τ) (Lvl := ℕ) pre0 spec0 c (V c))
    (hX := fun c => by
      iintro ⟨HU, -, -, -, Hp, -⟩; imodintro
      isplitl [Hp]; · iexists _; iexact Hp
      iexact HU)
    (hin := fun c => by
      change _ ⊢ iprop(ΦA spec0 c ∗ ΦT pre0 a.1 c)
      unfold ΦA ΦT; iintro ⟨Hp, Ht, Hr⟩
      isplitr [Ht]
      · isplitl [Hr] <;> iassumption
      · iexact Ht)
    (hout := fun c => by
      change iprop(ΦA spec0 c ∗ ΦT pre0 a.1 c) ⊢ _
      rw [ownSems0_none]; unfold ΦA
      iintro ⟨⟨Hr, Hp⟩, -⟩
      isplitl [Hp]; · iexact Hp
      isplitr; · iempintro
      iexact Hr)
    (QY := fun c s => ∀ b ∈ restRefsP sig pre0 spec0, s.mem ((c.tc : Thread nD τ).loc b) = V c b)
    (hY := fun c s' => by
      iintro ⟨-, HU, HSI⟩
      unfold unscopedRestP
      imodintro
      iapply (pointsTo_read_all (restRefsP sig pre0 spec0) (fun b => (c.tc : Thread nD τ).loc b) (V c) s')
      isplitl [HU] <;> iassumption)
    (hQ := fun s h c => ⟨fun w => (h c).1 w, rest_of_restP pre0 spec0 a.1 c (V c) s (hpf c) (h c).2.1 (h c).2.2⟩)

end Cert.KernelIdeal.Fr

end
-- ==== Proof.KIHost.lean ====
/-
  What the host operations before the region leave in the buffers the region reads.

  Before the region the host computes, from the mask of 32 rows by 2048 positions, the rank of every position (the
  running count of set positions minus one, kept inside 0 … 2047), cuts each row into 4 tiles of 512 positions, and
  builds two integer arrays: the block-number table, whose entry (b, t) is the floor of the rank at the first
  position of tile t of row b over 512, and the relative-rank column, whose entry at a set position is the rank minus
  512 times its tile's block number and at an unset position is the all-ones word. The third argument is narrowed to
  sixteen bits. None of this writes an argument. Each array is stated here as a pure function of the launched mask
  and read at one entry.
-/
import proofs.«129515_j39041252721255_2_alg».proof.Proof.Gen.KernelIdeal.Launch
import proofs.«129515_j39041252721255_2_alg».proof.Proof.PeSpec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Hst

open Idealize.ShloMosaic Idealize.ShloMosaic.TcCoe Idealize.SL.Sem Idealize.ShloMosaic.ValueIdx Cert.KernelIdeal Cert.KernelIdeal.Gen

variable {F : FTy → Type} [FloatOps F]

variable (m : (ℓ : Loc nD τ sig) → Buf (Elt F) ℓ)

/-- Core c's buffers when the region is entered: after every host operation before it, in order. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

/-- No host operation before the region writes the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8,
      List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes the second argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8,
      List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes the third argument. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8,
      List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The block-number table -/

/-- The rank, tile by tile: position s of a row is lane s % 512 of tile s / 512. -/
def rankTiles (mask : IVec S32x2048 1) : IVec S32x4x512 32 :=
  shapeCast S32x4x512 (Cert.PeSpec.rank mask) shapeCasts_S32x2048_S32x4x512

/-- The rank at each tile's first position. -/
def rankFirst (mask : IVec S32x2048 1) : IVec S32x4 32 :=
  shapeCast S32x4 (extractStridedSlice S32x4x1 ![0, 0, 0] (rankTiles mask) slices_S32x4x512_S32x4x1_0_0_0) shapeCasts_S32x4x1_S32x4

/-- The scalar word 512 in every entry of a [32, 4] table. -/
abbrev c512 : IVec S32x4 32 := broadcastInDim S32x4 ![] bcast_S_S32x4 (constantI S_ 32 512#32)

/-- Floor division by 512 of every entry of a [32, 4] table, operation by operation: the quotient rounded toward
    zero, lowered by one where the signs differ and the remainder is not zero. -/
def fdivTab (x : IVec S32x4 32) : IVec S32x4 32 :=
  select
    (andi (cmpi .ne (signi x) (broadcastInDim S32x4 ![] bcast_S_S32x4 (signi (constantI S_ 32 512#32))))
      (cmpi .ne (Host.remsi x c512) (broadcastInDim S32x4 ![] bcast_S_S32x4 (constantI S_ 32 0#32))))
    (subi (Host.divsi x c512) (broadcastInDim S32x4 ![] bcast_S_S32x4 (constantI S_ 32 1#32)))
    (Host.divsi x c512)

/-- The block-number table: the floor of the rank at each tile's first position over 512. -/
def kTab (mask : IVec S32x2048 1) : IVec S32x4 32 := fdivTab (rankFirst mask)

set_option maxRecDepth 8192 in
set_option maxHeartbeats 1000000 in
/-- The table the region is given is the block-number table of the launched mask. -/
theorem V_main_v8 (c : Dev nD) : V m c main_v8 = kTab (m ((c : Thread nD τ).loc main_arg1)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  unfold kTab fdivTab rankFirst rankTiles Cert.PeSpec.rank Cert.PeSpec.csum Cert.PeSpec.maskW
  simp only [StableHlo.TRef.ofBuf, StableHlo.TRef.toBuf, cast_cast, cast_eq, id]
  rfl

/-! ## The block-number table at an entry -/

/-- The rank at the first position of tile t of row b. -/
theorem rankFirst_apply (mask : IVec S32x2048 1) (b : Fin 32) (t : Fin 4) :
    rankFirst mask (ix2 b t) = Cert.PeSpec.rank mask (ix2 b ⟨512 * t.val, by omega⟩) := by
  unfold rankFirst rankTiles
  refine (shapeCast_apply _ _ (ix2 b t) (ix3 b t (0 : Fin 1)) ?_).trans ?_
  · rw [Shape.rowMajor_val_three, Shape.rowMajor_val_two]
    show (b.val * 4 + t.val) * 1 + 0 = b.val * 4 + t.val
    omega
  refine (extractStridedSlice_apply _ _ _ (ix3 b t (0 : Fin 1)) (ix3 b t (0 : Fin 512)) (fun a => ?_)).trans ?_
  · match a with
    | ⟨0, _⟩ => exact (Nat.zero_add _).symm
    | ⟨1, _⟩ => exact (Nat.zero_add _).symm
    | ⟨2, _⟩ => rfl
  refine shapeCast_apply _ _ (ix3 b t (0 : Fin 512)) (ix2 b ⟨512 * t.val, by omega⟩) ?_
  rw [Shape.rowMajor_val_three, Shape.rowMajor_val_two]
  show b.val * 2048 + 512 * t.val = (b.val * 4 + t.val) * 512 + 0
  omega

/-- The seventeen operations, at one entry, are the floor division by 512 of that entry. -/
theorem fdivTab_apply (x : IVec S32x4 32) (j : S32x4.Idx) : fdivTab x j = Cert.PeSpec.fdiv512 (x j) := rfl

/-- The block-number table at (b, t): the floor of the rank at position 512 t of row b over 512. -/
theorem kTab_apply (mask : IVec S32x2048 1) (b : Fin 32) (t : Fin 4) :
    kTab mask (ix2 b t) = Cert.PeSpec.fdiv512 (Cert.PeSpec.rank mask (ix2 b ⟨512 * t.val, by omega⟩)) := by
  unfold kTab
  rw [fdivTab_apply, rankFirst_apply]

/-! ## The relative-rank column -/

/-- The relative rank, tile by tile: at a set position the rank minus 512 times the tile's block number, at an unset
    position the all-ones word. -/
def relTiles (mask : IVec S32x2048 1) : IVec S32x4x512 32 :=
  select (shapeCast S32x4x512 mask shapeCasts_S32x2048_S32x4x512)
    (subi (rankTiles mask)
      (broadcastInDim S32x4x512 ![0, 1, 2] bcast_S32x4x1_S32x4x512_0_1_2
        (muli (broadcastInDim S32x4x1 ![0, 1] bcast_S32x4_S32x4x1_0_1 (kTab mask))
          (broadcastInDim S32x4x1 ![] bcast_S_S32x4x1 (constantI S_ 32 512#32)))))
    (broadcastInDim S32x4x512 ![] bcast_S_S32x4x512 (constantI S_ 32 4294967295#32))

/-- The relative-rank column: the tiles laid back along the row, one word per position. -/
def relArr (mask : IVec S32x2048 1) : IVec S32x2048x1 32 :=
  shapeCast S32x2048x1 (relTiles mask) shapeCasts_S32x4x512_S32x2048x1

set_option maxRecDepth 8192 in
set_option maxHeartbeats 2000000 in
/-- The column the region is given is the relative-rank column of the launched mask. -/
theorem V_main_v16 (c : Dev nD) : V m c main_v16 = relArr (m ((c : Thread nD τ).loc main_arg1)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  unfold relArr relTiles kTab fdivTab rankFirst rankTiles Cert.PeSpec.rank Cert.PeSpec.csum Cert.PeSpec.maskW
  simp only [StableHlo.TRef.ofBuf, StableHlo.TRef.toBuf, cast_cast, cast_eq, id]
  rfl

set_option maxRecDepth 8192 in
set_option maxHeartbeats 1000000 in
/-- The table block the region is given is the third argument as launched, narrowed to sixteen bits. -/
theorem V_main_v17 (c : Dev nD) :
    V m c main_v17 = truncf .bf16 (m ((c : Thread nD τ).loc main_arg2)) bitsLt_bf16_f32 := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp

/-! ## The relative-rank column at an entry -/

/-- A row of 2048 cut into 4 tiles of 512 reads, at lane r of tile q, the row's position 512 q + r. -/
theorem tiles_apply {α : Type} (x : S32x2048.Idx → α) (h : S32x2048.ShapeCasts S32x4x512)
    (b : Fin 32) (q : Fin 4) (r : Fin 512) (s : Fin 2048) (hs : s.val = 512 * q.val + r.val) :
    shapeCast S32x4x512 x h (ix3 b q r) = x (ix2 b s) := by
  refine shapeCast_apply _ _ (ix3 b q r) (ix2 b s) ?_
  rw [Shape.rowMajor_val_three, Shape.rowMajor_val_two]
  show b.val * 2048 + s.val = (b.val * 4 + q.val) * 512 + r.val
  omega

/-- A select between words on equal conditions and equal branches. -/
theorem select_congr {c c' : BitVec 1} {x x' y y' : BitVec 32} (hc : c = c') (hx : x = x') (hy : y = y') :
    Scalar.select c x y = Scalar.select c' x' y' := by
  rw [hc, hx, hy]

/-- The relative rank at lane r of tile q of row b, which is the row's position s = 512 q + r. -/
theorem relTiles_apply (mask : IVec S32x2048 1) (b : Fin 32) (q : Fin 4) (r : Fin 512) (s : Fin 2048)
    (hs : s.val = 512 * q.val + r.val) :
    relTiles mask (ix3 b q r) = Scalar.select (mask (ix2 b s))
      (Cert.PeSpec.rank mask (ix2 b s) - kTab mask (ix2 b q) * 512#32) (4294967295#32 : BitVec 32) := by
  have e1 := tiles_apply mask shapeCasts_S32x2048_S32x4x512 b q r s hs
  have e2 : rankTiles mask (ix3 b q r) = Cert.PeSpec.rank mask (ix2 b s) :=
    tiles_apply (Cert.PeSpec.rank mask) shapeCasts_S32x2048_S32x4x512 b q r s hs
  have e3 : broadcastInDim S32x4x512 ![0, 1, 2] bcast_S32x4x1_S32x4x512_0_1_2
        (muli (broadcastInDim S32x4x1 ![0, 1] bcast_S32x4_S32x4x1_0_1 (kTab mask))
          (broadcastInDim S32x4x1 ![] bcast_S_S32x4x1 (constantI S_ 32 512#32))) (ix3 b q r)
      = kTab mask (ix2 b q) * 512#32 := by
    refine (broadcastInDim_apply _ _ _ (ix3 b q r) (ix3 b q (0 : Fin 1)) (fun a => ?_)).trans ?_
    · match a with
      | ⟨0, _⟩ => rfl
      | ⟨1, _⟩ => rfl
      | ⟨2, _⟩ => rfl
    refine congrArg (· * 512#32) (broadcastInDim_apply _ _ _ (ix3 b q (0 : Fin 1)) (ix2 b q) (fun a => ?_))
    match a with
    | ⟨0, _⟩ => rfl
    | ⟨1, _⟩ => rfl
  unfold relTiles
  refine (select_apply _ _ _ _).trans ?_
  exact select_congr e1 (congrArg₂ (· - ·) e2 e3) rfl

/-- The relative-rank column at position s of row b. -/
theorem relArr_apply (mask : IVec S32x2048 1) (b : Fin 32) (s : Fin 2048) :
    relArr mask (ix3 b s (0 : Fin 1)) = Scalar.select (mask (ix2 b s))
      (Cert.PeSpec.rank mask (ix2 b s) - kTab mask (ix2 b ⟨s.val / 512, by omega⟩) * 512#32) (4294967295#32 : BitVec 32) := by
  unfold relArr
  refine (shapeCast_apply _ _ (ix3 b s (0 : Fin 1))
    (ix3 b (⟨s.val / 512, by omega⟩ : Fin 4) (⟨s.val % 512, Nat.mod_lt _ (by decide)⟩ : Fin 512)) ?_).trans ?_
  · rw [Shape.rowMajor_val_three, Shape.rowMajor_val_three]
    show (b.val * 4 + s.val / 512) * 512 + s.val % 512 = (b.val * 2048 + s.val) * 1 + 0
    omega
  exact relTiles_apply mask b _ _ s (by show s.val = 512 * (s.val / 512) + s.val % 512; omega)

end Cert.KernelIdeal.Hst

end
-- ==== Proof.KIFrame.lean ====
/-
  The frame of the whole program. The host operations before the region run first (nine stretches, the outlined
  functions' bodies among them) and leave the buffers at the region-entry contents; the prefetched table there is
  the block-number table, whose every word is at most 3 because a rank is at most 2047 — so block k and block
  min(k + 1, 3) both lie inside the table of four blocks of 512 rows, whole rows of it, and the pipeline's side
  condition on the table holds for every launch. The region then runs as the body's obligation allows, and the three
  argument arrays end as launched: the first is only read by its window, the other two never enter the region.
-/
import proofs.«129515_j39041252721255_2_alg».proof.Proof.KIRun
import proofs.«129515_j39041252721255_2_alg».proof.Proof.KIHost
import proofs.«129515_j39041252721255_2_alg».proof.Proof.Bridge
import Idealize.ShloMosaic.Lib.Pipeline.Kit

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.KernelIdeal Cert.KernelIdeal.Gen

variable {F : FTy → Type} [FloatOps F]

local notation "𝕄" => MT nD τ sig Unit (Elt F) ℕ (UR sig nD τ) ℕ

open Cert.KernelIdeal.Hst Idealize.ShloMosaic.ValueIdx

variable (m : (ℓ : Loc nD τ sig) → Buf (Elt F) ℓ) (ρ : Dev nD → PrngReg)

/-- @main up to the region: the stretches of host operations, then the region, holding the buffers at `Hst.V`. -/
theorem hmain (𝒱₀ : Variants) :
    HMainP (Ix := Unit) (Name := ℕ) (U := UR sig nD τ) (Lvl := ℕ) pcfgs (0 : Fin 1) defs₀ 𝒱₀ m (main (F := F)) (Hst.V m) :=
  hmainP_prefixes pcfgs 0 defs₀ 𝒱₀ m main [hostOps0, hostOps0_1, hostOps0_2, hostOps0_3, hostOps0_4, hostOps0_5, hostOps0_6, hostOps0_7, hostOps0_8]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩)
    main_chain

/-- The table's contents when the region is entered (the program runs on one device). -/
def tbl : pre0.Contents (Elt F) := fun j => Hst.V m (0 : Dev nD) (pre0.ref j)
theorem V_pre (c : Dev nD) (j : Fin 1) : Hst.V m c (pre0.ref j) = tbl m j := by
  obtain rfl : c = 0 := Subsingleton.elim _ _; rfl

/-- Every word of the table is a block number 0 … 3. -/
theorem tbl_le (x : S32x4.Idx) : (tbl m 0 x).toNat ≤ 3 := by
  have e : (tbl m 0 : S32x4.Idx → BitVec 32) = kTab (m (((0 : Dev nD) : Thread nD τ).loc main_arg1)) := V_main_v8 m 0
  obtain ⟨b, t, rfl⟩ : ∃ (b : Fin 32) (t : Fin 4), x = ix2 b t := ⟨x 0, x 1, eq_ix2 x⟩
  rw [e, kTab_apply]
  exact Cert.PeSpec.kw_le _ _ _

/-- A block of 512 whole rows at block number 0 … 3 lies inside the 2048-row table, on whole words. -/
theorem blockOkN : ∀ k : Fin 4, ∃ h : (∀ x, ((![k.val, 0] : Fin 2 → Nat) x + 1) * S512x512.size x ≤ S2048x512.size x),
    EltTy.bits .bf16 = 32 ∨ (Rect.block (s := S2048x512) S512x512.size ![k.val, 0] h).WholeWords (EltTy.packing .bf16) := by
  decide

theorem blockOk (idx : Fin 2 → Nat) (w : BitVec 32) (hw : w.toNat ≤ 3) (e : idx = ![w.toNat, 0]) :
    ∃ h : (∀ x, (idx x + 1) * S512x512.size x ≤ S2048x512.size x),
      EltTy.bits .bf16 = 32 ∨ (Rect.block (s := S2048x512) S512x512.size idx h).WholeWords (EltTy.packing .bf16) := by
  subst e
  exact blockOkN ⟨w.toNat, by omega⟩

/-- The pipeline's side condition on the table's contents. -/
theorem ok : ok0 (F := F) (tbl m) := by
  constructor
  · intro i
    obtain ⟨w, hw, e⟩ : ∃ w : BitVec 32, w.toNat ≤ 3 ∧ cc0_transform_2 k0_off1_inb numel1_S1x1 (tbl m) i = ![w.toNat, 0] :=
      ⟨_, tbl_le m _, rfl⟩
    exact blockOk _ w hw e
  · intro i
    obtain ⟨w, hw, e⟩ : ∃ w : BitVec 32, w.toNat ≤ 3
        ∧ cc0_transform_3 k0_off1_inb numel1_S1x1 (tbl m) i = ![(Scalar.minsi (Scalar.addi w 1#32) 3#32).toNat, 0] :=
      ⟨_, tbl_le m _, rfl⟩
    exact blockOk _ _ (Cert.PeSpec.kw_succ_le w hw) e

/-- The table's contents as admissible contents. -/
abbrev adm : (pcfg0 (F := F)).Adm := ⟨tbl m, ok m⟩

/-- The program's run: the output array at the write-backs of the body's results, everything else as the region found it. -/
theorem run : θ_run defs (onTc (τ := τ) (main (F := F))) (s₀ m ρ)
    (FramePost (pin pcfgs fun _ => adm m) (dats (adm m) (Hst.V m)) 0 (Hst.V m)) :=
  run_main (adm m) (Hst.V m) m ρ (hmain m Variants.none) (V_pre m)

/-- THE FRAME: every weakly fair execution terminates, nothing faults, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats (adm m) (Hst.V m) 0 c).arrAt_in 0 rfl _).trans ((A_eq (adm m) (Hst.V m) c 0).trans (V_main_arg0 m c))),
      ((h c).2 main_arg1 (by decide : main_arg1 ∈ restRefs sig spec0)).trans (V_main_arg1 m c),
      ((h c).2 main_arg2 (by decide : main_arg2 ∈ restRefs sig spec0)).trans (V_main_arg2 m c)⟩) (run m ρ)

end Cert.KernelIdeal.Fr

end
-- ==== Proof.KIValue.lean ====
/-
  What the kernel leaves in its output array, at the ideal instance, for any admissible table contents and any
  contents of the buffers at the region's entry.

  Grid point t = 4 b + s handles rows 512 s … 512 s + 511 of sequence b. Its input blocks are those rows of the
  sequence array and of the relative-rank column, and rows 512 K … 512 K + 511 and 512 K' … 512 K' + 511 of the
  converted table, K and K' the block numbers the two table windows' index maps read off the prefetched table at
  (b, s). Reading the body's value at one element (row j, lane d) gives the sequence entry plus two sums over 512
  lanes of a one-hot weight times a table entry. Every output block is written back whole and the blocks tile the
  array, so the array after the run is that formula at every index.
-/
import proofs.«129515_j39041252721255_2_alg».proof.Proof.KIRun
import proofs.«129515_j39041252721255_2_alg».proof.Proof.PayValue
import Idealize.ShloMosaic.Lib.Pipeline.Value
import Idealize.ShloMosaic.Lib.ValueIdx

set_option maxRecDepth 16384

noncomputable section

namespace Cert.KernelIdeal.Fr

open Idealize.ShloMosaic Idealize.ShloMosaic.TcCoe Idealize.ShloMosaic.ValueIdx
open Idealize.SL Idealize.SL.Sem
open Idealize.ShloMosaic.Pipeline
open Cert.KernelIdeal Cert.KernelIdeal.Gen

variable (a : (pcfg0 (F := Ideal)).Adm)
  (V : (c : Dev nD) → (b : Ref sig .tc) → Buf (Elt Ideal) ((c : Thread nD τ).loc b))

/-! ## The index maps over the grid -/

theorem tr0_facts : ∀ t : Fin grid0.N, cc0_transform_0 (grid0.coords t) = ![t.val / 4, t.val % 4, 0] := by decide +kernel
theorem tr1_facts : ∀ t : Fin grid0.N, cc0_transform_1 (grid0.coords t) = ![t.val / 4, t.val % 4, 0] := by decide +kernel
theorem tr4_facts : ∀ t : Fin grid0.N, cc0_transform_4 (grid0.coords t) = ![t.val / 4, t.val % 4, 0] := by decide +kernel
/-- The output block is written back at every point, at any contents of the table. -/
theorem flush4 : ∀ t : Fin (cfgA a).N, ((cfgA a).win 4).flush t = true :=
  (by decide +kernel : ∀ t : Fin grid0.N, Pipeline.Window.flushOf grid0 true cc0_transform_4 t = true)

theorem idx0 (t : Fin (cfgA a).N) : ((cfgA a).win 0).index t = cc0_transform_0 (grid0.coords t) := rfl
theorem idx1 (t : Fin (cfgA a).N) : ((cfgA a).win 1).index t = cc0_transform_1 (grid0.coords t) := rfl
theorem idx4 (t : Fin (cfgA a).N) : ((cfgA a).win 4).index t = cc0_transform_4 (grid0.coords t) := rfl

theorem N128 : (cfgA a).N = 128 := N_0

/-- The table block numbers the two table windows read at point `t`. -/
def kW (t : Fin (cfgA a).N) : ℕ := ((cfgA a).win 2).index t (0 : Fin 2)
def kW' (t : Fin (cfgA a).N) : ℕ := ((cfgA a).win 3).index t (0 : Fin 2)

/-- Both lie inside the table of four blocks: the pipeline's side condition on the table's contents. -/
theorem kW_lt (t : Fin (cfgA a).N) : kW a t < 4 := by
  obtain ⟨h, -⟩ := a.2.1 (grid0.coords t)
  have := h (0 : Fin 2)
  have e : S512x512.size (0 : Fin 2) = 512 := rfl
  have e' : S2048x512.size (0 : Fin 2) = 2048 := rfl
  show cc0_transform_2 k0_off1_inb numel1_S1x1 a.1 (grid0.coords t) (0 : Fin 2) < 4
  rw [e, e'] at this; omega
theorem kW'_lt (t : Fin (cfgA a).N) : kW' a t < 4 := by
  obtain ⟨h, -⟩ := a.2.2 (grid0.coords t)
  have := h (0 : Fin 2)
  have e : S512x512.size (0 : Fin 2) = 512 := rfl
  have e' : S2048x512.size (0 : Fin 2) = 2048 := rfl
  show cc0_transform_3 k0_off1_inb numel1_S1x1 a.1 (grid0.coords t) (0 : Fin 2) < 4
  rw [e, e'] at this; omega

/-- The converted table on all natural rows: zero past its 2048 rows (never read there). -/
def tabN (c : Dev nD) (r : ℕ) (d : Fin 512) : EReal := if h : r < 2048 then V c main_v17 (ix2 (⟨r, h⟩ : Fin 2048) d) else 0

/-! ## The input blocks, element by element -/

theorem blk0_apply (c : Dev nD) (t : Fin (cfgA a).N) (j d : Fin 512) :
    iblk a V c 0 t (ix3 (0 : Fin 1) j d)
      = V c main_arg0 (ix3 (⟨t.val / 4, by have := t.isLt; have := N128 a; omega⟩ : Fin 32) (⟨512 * (t.val % 4) + j.val, by omega⟩ : Fin 2048) d) := by
  unfold iblk
  show V c main_arg0 ((((cfgA a).win 0).blk t).view.emb (ix3 (0 : Fin 1) j d)) = _
  refine congrArg (V c main_arg0) ?_
  funext x; apply Fin.ext
  have e := tr0_facts t
  match x with
  | ⟨0, _⟩ => show ((cfgA a).win 0).index t (0 : Fin 3) * 1 + 1 * 0 = t.val / 4; rw [idx0, e]; simp
  | ⟨1, _⟩ => show ((cfgA a).win 0).index t (1 : Fin 3) * 512 + 1 * j.val = 512 * (t.val % 4) + j.val; rw [idx0, e]; simp; omega
  | ⟨2, _⟩ => show ((cfgA a).win 0).index t (2 : Fin 3) * 512 + 1 * d.val = d.val; rw [idx0, e]; simp

theorem blk1_apply (c : Dev nD) (t : Fin (cfgA a).N) (j : Fin 512) :
    iblk a V c 1 t (ix3 (0 : Fin 1) j (0 : Fin 1))
      = V c main_v16 (ix3 (⟨t.val / 4, by have := t.isLt; have := N128 a; omega⟩ : Fin 32) (⟨512 * (t.val % 4) + j.val, by omega⟩ : Fin 2048) (0 : Fin 1)) := by
  unfold iblk
  show V c main_v16 ((((cfgA a).win 1).blk t).view.emb (ix3 (0 : Fin 1) j (0 : Fin 1))) = _
  refine congrArg (V c main_v16) ?_
  funext x; apply Fin.ext
  have e := tr1_facts t
  match x with
  | ⟨0, _⟩ => show ((cfgA a).win 1).index t (0 : Fin 3) * 1 + 1 * 0 = t.val / 4; rw [idx1, e]; simp
  | ⟨1, _⟩ => show ((cfgA a).win 1).index t (1 : Fin 3) * 512 + 1 * j.val = 512 * (t.val % 4) + j.val; rw [idx1, e]; simp; omega
  | ⟨2, _⟩ => show ((cfgA a).win 1).index t (2 : Fin 3) * 1 + 1 * 0 = 0; rw [idx1, e]; simp

theorem blk2_apply (c : Dev nD) (t : Fin (cfgA a).N) (i d : Fin 512) :
    iblk a V c 2 t (ix2 i d) = tabN V c (512 * kW a t + i.val) d := by
  have hk := kW_lt a t
  unfold tabN
  rw [dif_pos (by omega : 512 * kW a t + i.val < 2048)]
  unfold iblk
  show V c main_v17 ((((cfgA a).win 2).blk t).view.emb (ix2 i d)) = _
  refine congrArg (V c main_v17) ?_
  funext x; apply Fin.ext
  match x with
  | ⟨0, _⟩ => show ((cfgA a).win 2).index t (0 : Fin 2) * 512 + 1 * i.val = 512 * kW a t + i.val; unfold kW; omega
  | ⟨1, _⟩ => show ((cfgA a).win 2).index t (1 : Fin 2) * 512 + 1 * d.val = d.val
              have : ((cfgA a).win 2).index t (1 : Fin 2) = 0 := rfl
              rw [this]; omega

theorem blk3_apply (c : Dev nD) (t : Fin (cfgA a).N) (i d : Fin 512) :
    iblk a V c 3 t (ix2 i d) = tabN V c (512 * kW' a t + i.val) d := by
  have hk := kW'_lt a t
  unfold tabN
  rw [dif_pos (by omega : 512 * kW' a t + i.val < 2048)]
  unfold iblk
  show V c main_v17 ((((cfgA a).win 3).blk t).view.emb (ix2 i d)) = _
  refine congrArg (V c main_v17) ?_
  funext x; apply Fin.ext
  match x with
  | ⟨0, _⟩ => show ((cfgA a).win 3).index t (0 : Fin 2) * 512 + 1 * i.val = 512 * kW' a t + i.val; unfold kW'; omega
  | ⟨1, _⟩ => show ((cfgA a).win 3).index t (1 : Fin 2) * 512 + 1 * d.val = d.val
              have : ((cfgA a).win 3).index t (1 : Fin 2) = 0 := rfl
              rw [this]; omega

/-! ## The output array as one function -/

/-- The grid point that handles position `s` of sequence `b`. -/
def ptOf (b : Fin 32) (s : Fin 2048) : Fin (cfgA a).N := ⟨4 * b.val + s.val / 512, by have := N128 a; omega⟩

/-- The sequence entry and the relative-rank word at a position, as the region finds them. -/
def seqAt (c : Dev nD) (b : Fin 32) (s : Fin 2048) (d : Fin 512) : EReal := V c main_arg0 (ix3 b s d)
def relAt (c : Dev nD) (b : Fin 32) (s : Fin 2048) : BitVec 32 := V c main_v16 (ix3 b s (0 : Fin 1))

/-- The output at sequence `b`, position `s`, lane `d`. -/
def Gv (c : Dev nD) (b : Fin 32) (s : Fin 2048) (d : Fin 512) : EReal :=
  seqAt V c b s d
    + ((∑ i : Fin 512, Cert.PeSpec.hot (relAt V c b s) i * tabN V c (512 * kW a (ptOf a b s) + i.val) d)
      + (∑ i : Fin 512, Cert.PeSpec.hot (relAt V c b s - 512#32) i * tabN V c (512 * kW' a (ptOf a b s) + i.val) d))

theorem lt0 (i : S32x2048x512.Idx) : (i 0).val < 32 := (i 0).isLt
theorem lt1 (i : S32x2048x512.Idx) : (i 1).val < 2048 := (i 1).isLt
theorem lt2 (i : S32x2048x512.Idx) : (i 2).val < 512 := (i 2).isLt

def Gout (c : Dev nD) : S32x2048x512.Idx → EReal := fun i =>
  Gv a V c ⟨(i 0).val, lt0 i⟩ ⟨(i 1).val, lt1 i⟩ ⟨(i 2).val, lt2 i⟩

theorem hz3 : (![0, 0, 0] : Fin 3 → Nat) = fun _ => 0 := funext fun x => by fin_cases x <;> rfl
theorem hz2 : (![0, 0] : Fin 2 → Nat) = fun _ => 0 := funext fun x => by fin_cases x <;> rfl

/-- The output block after the body is the body's value of the four input blocks: every access is of a whole buffer. -/
theorem out0_4_eq (x0 : Vec Ideal S1x512x512 .f32) (x1 : Vec Ideal S1x512x1 .i32) (x2 x3 : Vec Ideal S512x512 .bf16) :
    out0_4 x0 x1 x2 x3 = k0_pay1 (F := Ideal) x1 x2 x3 x0 := by
  unfold out0_4
  rw [View.canon_unit_zero hz3]
  simp only [View.ld_unit_zero (S := S1x512x512) hz3, View.ld_unit_zero (S := S1x512x1) hz3, View.ld_unit_zero (S := S512x512) hz2]

/-- Where element (0, j, d) of point `t`'s output block sits in the array. -/
theorem emb4 (t : Fin (cfgA a).N) (j d : Fin 512) :
    (((cfgA a).win 4).blk t).view.emb (ix3 (0 : Fin 1) j d)
      = ix3 (⟨t.val / 4, by have := t.isLt; have := N128 a; omega⟩ : Fin 32) (⟨512 * (t.val % 4) + j.val, by omega⟩ : Fin 2048) d := by
  funext x; apply Fin.ext
  have e := tr4_facts t
  match x with
  | ⟨0, _⟩ => show ((cfgA a).win 4).index t (0 : Fin 3) * 1 + 1 * 0 = t.val / 4; rw [idx4, e]; simp
  | ⟨1, _⟩ => show ((cfgA a).win 4).index t (1 : Fin 3) * 512 + 1 * j.val = 512 * (t.val % 4) + j.val; rw [idx4, e]; simp; omega
  | ⟨2, _⟩ => show ((cfgA a).win 4).index t (2 : Fin 3) * 512 + 1 * d.val = d.val; rw [idx4, e]; simp

/-- WHAT POINT `t` WRITES BACK is block `t` of the output function. -/
theorem flushed4_eq (c : Dev nD) (t : Fin (cfgA a).N) :
    (dats a V 0 c).flushed 4 t = (((cfgA a).win 4).blk t).view.read (Elt Ideal) (Gout a V c) := by
  show ((cfgA a).win 4).cut (grid0.coords t) ((dats a V 0 c).after 4 t) = _
  rw [after0_4]
  refine funext fun (y : S1x512x512.Idx) => ?_
  obtain ⟨u, j, d, rfl⟩ : ∃ (u : Fin 1) (j d : Fin 512), y = ix3 u j d := ⟨y 0, y 1, y 2, eq_ix3 y⟩
  obtain rfl : u = 0 := Subsingleton.elim _ _
  show out0_4 (iblk a V c 0 t) (iblk a V c 1 t) (iblk a V c 2 t) (iblk a V c 3 t) (ix3 (0 : Fin 1) j d)
      = Gout a V c ((((cfgA a).win 4).blk t).view.emb (ix3 (0 : Fin 1) j d))
  refine (congrFun (out0_4_eq (iblk a V c 0 t) (iblk a V c 1 t) (iblk a V c 2 t) (iblk a V c 3 t)) (ix3 (0 : Fin 1) j d)).trans ?_
  refine (Cert.KernelIdeal.PayValue.pay_apply (iblk a V c 1 t) (iblk a V c 2 t) (iblk a V c 3 t) (iblk a V c 0 t) j d).trans ?_
  rw [emb4]
  show _ = Gv a V c _ _ _
  unfold Gv seqAt relAt
  have hpt : ptOf a (⟨t.val / 4, by have := t.isLt; have := N128 a; omega⟩ : Fin 32) (⟨512 * (t.val % 4) + j.val, by omega⟩ : Fin 2048) = t := by
    apply Fin.ext; show 4 * (t.val / 4) + (512 * (t.val % 4) + j.val) / 512 = t.val; omega
  rw [hpt, blk0_apply, blk1_apply]
  simp only [blk2_apply, blk3_apply]

set_option backward.isDefEq.respectTransparency.types false in
/-- An index of the array is in point `t`'s block iff each coordinate is in the block's range on its axis. -/
theorem mem_blk4 (t : Fin (cfgA a).N) (i : S32x2048x512.Idx) :
    i ∈ (((cfgA a).win 4).blk t).view.set ↔ ∀ x : Fin 3, ((cfgA a).win 4).index t x * S1x512x512.size x ≤ (i x).val
      ∧ (i x).val < ((cfgA a).win 4).index t x * S1x512x512.size x + S1x512x512.size x := by
  show i ∈ ((View.whole main_v18).slice (((cfgA a).win 4).rect t)).set ↔ _
  rw [View.set_slice_whole]
  exact Rect.mem_set_unit

/-- Every index of the output array is in some point's block. -/
theorem cover4 (i : S32x2048x512.Idx) : ∃ t : Fin (cfgA a).N, ((cfgA a).win 4).flush t = true ∧ i ∈ (((cfgA a).win 4).blk t).view.set := by
  have h0 : (i 0).val < 32 := (i 0).isLt
  have h1 : (i 1).val < 2048 := (i 1).isLt
  have h2 : (i 2).val < 512 := (i 2).isLt
  refine ⟨⟨4 * (i 0).val + (i 1).val / 512, by have := N128 a; omega⟩, flush4 a _, ?_⟩
  rw [mem_blk4]
  intro x
  have e := tr4_facts ⟨4 * (i 0).val + (i 1).val / 512, by have := N_0; omega⟩
  match x with
  | ⟨0, _⟩ => show ((cfgA a).win 4).index _ (0 : Fin 3) * 1 ≤ (i 0).val ∧ (i 0).val < ((cfgA a).win 4).index _ (0 : Fin 3) * 1 + 1
              rw [idx4, e]; simp; omega
  | ⟨1, _⟩ => show ((cfgA a).win 4).index _ (1 : Fin 3) * 512 ≤ (i 1).val ∧ (i 1).val < ((cfgA a).win 4).index _ (1 : Fin 3) * 512 + 512
              rw [idx4, e]; simp; omega
  | ⟨2, _⟩ => show ((cfgA a).win 4).index _ (2 : Fin 3) * 512 ≤ (i 2).val ∧ (i 2).val < ((cfgA a).win 4).index _ (2 : Fin 3) * 512 + 512
              rw [idx4, e]; simp; omega

/-- THE OUTPUT ARRAY after the run. -/
theorem final4 (c : Dev nD) : (dats a V 0 c).arrAt 4 (cfgA a).N = Gout a V c :=
  (dats a V 0 c).arrAt_eq_of_cover 4 (Gout a V c) (fun t _ => flushed4_eq a V c t) (cover4 a)

end Cert.KernelIdeal.Fr

end
-- ==== Proof.RefRun.lean ====
/-
  The reference program's run, and its result read at an index, at the ideal instance.

  The program is a straight line of thirty host operations once its three module-local functions (the running sum,
  the clip, the select against a scalar) are unfolded at their calls. Its run: every weakly fair execution ends with
  the result buffer at the operations' composed term of the three arguments, the arguments unchanged. Read at the
  index (b, s, d) the composed term is the sequence entry plus, where the mask is set, row "rank of (b, s)" of the
  table at column d.
-/
import proofs.«129515_j39041252721255_2_alg».proof.ReferenceIdeal
import proofs.«129515_j39041252721255_2_alg».proof.Proof.Gen.ReferenceIdeal
import proofs.«129515_j39041252721255_2_alg».proof.Proof.PeSpec
import Idealize.ShloMosaic.Lib.StableHlo.Run
import Idealize.ShloMosaic.Lib.ValueIdx
import Idealize.ShloMosaic.Lib.IdealHost
import Idealize.ShloMosaic.Lib.Pipeline.Value
import Idealize.ShloMosaic.PureOps.Ideal.Laws
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

section Ops

variable {F : FTy → Type} [FloatOps F]

/-- @main's thirty operations in order, the calls unfolded: the running sum is three (the scalar zero, its
    broadcast to a scalar, the windowed sum), the clip six (each bound converted to its own type and broadcast, the
    maximum, the minimum), the select against a scalar three (the mask's broadcast along the lanes, the scalar's
    broadcast, the select). -/
abbrev ops : List (HloOp τ sig (Elt F)) :=
  [ unary main_arg1 main_v0 ((extui 32 · natLt_1_32) : (⟨S32x2048, .i1⟩ : BufTy).Contents (Elt F) → (⟨S32x2048, .i32⟩ : BufTy).Contents (Elt F)),
    TRef.nullary main_call0.call0.c (constantI S_ 32 0#32),
    TRef.unary main_call0.call0.c main_call0.call0.v0 (broadcastInDim S_ ![] bcast_S_S_),
    TRef.binary (.of main_v0 : TRef sig ⟨S32x2048, .i32⟩) main_call0.call0.v0 main_call0.call0.v1 (fun x v => Host.reduceWindow IntOp.addi ![1, 2048] ![1, 1] ![0, 2047] ![0, 0] x v reduceWindows_S32x2048_S32x2048_w1s1p0_0_w2048s1p2047_0 h_S_),
    nullary main_c (constantI S_ 32 1#32),
    unary main_c main_v2 (broadcastInDim S32x2048 ![] bcast_S_S32x2048 : (⟨S_, .i32⟩ : BufTy).Contents (Elt F) → (⟨S32x2048, .i32⟩ : BufTy).Contents (Elt F)),
    binary main_v1 main_v2 main_v3 (subi : (⟨S32x2048, .i32⟩ : BufTy).Contents (Elt F) → (⟨S32x2048, .i32⟩ : BufTy).Contents (Elt F) → (⟨S32x2048, .i32⟩ : BufTy).Contents (Elt F)),
    nullary main_c_0 (constantI S_ 32 0#32),
    nullary main_c_1 (constantI S_ 32 2047#32),
    TRef.unary (.of main_c_0 : TRef sig ⟨S_, .i32⟩) main_call1.v0 id,
    TRef.unary main_call1.v0 main_call1.v1 (broadcastInDim S32x2048 ![] bcast_S_S32x2048),
    TRef.binary main_call1.v1 (.of main_v3 : TRef sig ⟨S32x2048, .i32⟩) main_call1.v2 maxsi,
    TRef.unary (.of main_c_1 : TRef sig ⟨S_, .i32⟩) main_call1.v3 id,
    TRef.unary main_call1.v3 main_call1.v4 (broadcastInDim S32x2048 ![] bcast_S_S32x2048),
    TRef.binary main_call1.v4 main_call1.v2 main_call1.v5 minsi,
    nullary main_c_2 (constantI S_ 32 0#32),
    unary main_c_2 main_v5 (broadcastInDim S32x2048 ![] bcast_S_S32x2048 : (⟨S_, .i32⟩ : BufTy).Contents (Elt F) → (⟨S32x2048, .i32⟩ : BufTy).Contents (Elt F)),
    binary main_v4 main_v5 main_v6 (cmpi .slt : (⟨S32x2048, .i32⟩ : BufTy).Contents (Elt F) → (⟨S32x2048, .i32⟩ : BufTy).Contents (Elt F) → (⟨S32x2048, .i1⟩ : BufTy).Contents (Elt F)),
    nullary main_c_3 (constantI S_ 32 2048#32),
    unary main_c_3 main_v7 (broadcastInDim S32x2048 ![] bcast_S_S32x2048 : (⟨S_, .i32⟩ : BufTy).Contents (Elt F) → (⟨S32x2048, .i32⟩ : BufTy).Contents (Elt F)),
    binary main_v4 main_v7 main_v8 (addi : (⟨S32x2048, .i32⟩ : BufTy).Contents (Elt F) → (⟨S32x2048, .i32⟩ : BufTy).Contents (Elt F) → (⟨S32x2048, .i32⟩ : BufTy).Contents (Elt F)),
    ternary main_v6 main_v8 main_v4 main_v9 (select : (⟨S32x2048, .i1⟩ : BufTy).Contents (Elt F) → (⟨S32x2048, .i32⟩ : BufTy).Contents (Elt F) → (⟨S32x2048, .i32⟩ : BufTy).Contents (Elt F) → (⟨S32x2048, .i32⟩ : BufTy).Contents (Elt F)),
    unary main_v9 main_v10 (broadcastInDim S32x2048x1 ![0, 1] bcast_S32x2048_S32x2048x1_0_1 : (⟨S32x2048, .i32⟩ : BufTy).Contents (Elt F) → (⟨S32x2048x1, .i32⟩ : BufTy).Contents (Elt F)),
    binary main_arg2 main_v10 main_v11 ((fun x i => Host.gather gather_S2048x512_S32x2048x1_S32x2048x512_2_0_n_n_0_2_1512 x i) : (⟨S2048x512, .f32⟩ : BufTy).Contents (Elt F) → (⟨S32x2048x1, .i32⟩ : BufTy).Contents (Elt F) → (⟨S32x2048x512, .f32⟩ : BufTy).Contents (Elt F)),
    unary main_arg1 main_v12 (broadcastInDim S32x2048x1 ![0, 1] bcast_S32x2048_S32x2048x1_0_1 : (⟨S32x2048, .i1⟩ : BufTy).Contents (Elt F) → (⟨S32x2048x1, .i1⟩ : BufTy).Contents (Elt F)),
    nullary main_cst (constant S_ .f32 0x00000000#32),
    TRef.unary (.of main_v12 : TRef sig ⟨S32x2048x1, .i1⟩) main_call2.v0 (broadcastInDim S32x2048x512 ![0, 1, 2] bcast_S32x2048x1_S32x2048x512_0_1_2),
    TRef.unary (.of main_cst : TRef sig ⟨S_, .f32⟩) main_call2.v1 (broadcastInDim S32x2048x512 ![] bcast_S_S32x2048x512),
    TRef.ternary main_call2.v0 (.of main_v11 : TRef sig ⟨S32x2048x512, .f32⟩) main_call2.v1 main_call2.v2 select,
    binary main_arg0 main_v13 main_v14 (addf : (⟨S32x2048x512, .f32⟩ : BufTy).Contents (Elt F) → (⟨S32x2048x512, .f32⟩ : BufTy).Contents (Elt F) → (⟨S32x2048x512, .f32⟩ : BufTy).Contents (Elt F)) ]

set_option maxRecDepth 1024 in
/-- @main is that straight line: the functions' definitions unfolded at their calls, both sides are one chain of
    steps once sequencing is reassociated. -/
theorem main_eq (c : Dev nD) : main (F := F) c = seq ops := by
  simp only [main, fn_cumsum.body, fn_cumsum_0.body, fn_clip.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., nullary_bufs_sub .., unary_bufs_sub .., unary_bufs_sub .., ternary_bufs_sub .., binary_bufs_sub ..⟩

end Ops

/-! ## The composed term -/

/-- The negative-index normalisation of a row number: a negative one is counted from the end of the 2048 rows. -/
def gidx (r : BitVec 32) : BitVec 32 := Scalar.select (IntOp.cmpi .slt r 0#32) (IntOp.addi r 2048#32) r

/-- The row numbers the gather reads: the rank of every position, normalised. -/
def rows (mask : IVec S32x2048 1) : IVec S32x2048 32 :=
  select (cmpi .slt (Cert.PeSpec.rank mask) (Cert.PeSpec.splat 0#32))
    (addi (Cert.PeSpec.rank mask) (Cert.PeSpec.splat 2048#32)) (Cert.PeSpec.rank mask)

/-- The result array as one pure function of the three argument arrays: the operations' composed term. -/
def out (seqs : FVec Ideal S32x2048x512 .f32) (mask : IVec S32x2048 1) (pe : FVec Ideal S2048x512 .f32) :
    FVec Ideal S32x2048x512 .f32 :=
  addf seqs
    (select
      (broadcastInDim S32x2048x512 ![0, 1, 2] bcast_S32x2048x1_S32x2048x512_0_1_2
        (broadcastInDim S32x2048x1 ![0, 1] bcast_S32x2048_S32x2048x1_0_1 mask))
      (Host.gather gather_S2048x512_S32x2048x1_S32x2048x512_2_0_n_n_0_2_1512 pe
        (broadcastInDim S32x2048x1 ![0, 1] bcast_S32x2048_S32x2048x1_0_1 (rows mask)))
      (broadcastInDim S32x2048x512 ![] bcast_S_S32x2048x512 (constant S_ .f32 0x00000000#32)))

attribute [local irreducible] Host.reduceWindow Host.gather in
set_option maxRecDepth 8192 in
set_option maxHeartbeats 1000000 in
/-- The fold of the thirty operations at the result buffer is `out` of the argument buffers: each operation's result
    at its own buffer is its function's value, elsewhere what was there, and the typed references' casts are the
    identity at these literal references. -/
theorem out_eq (V : Valuation τ sig (Elt Ideal)) :
    after (ops (F := Ideal)) V (main_v14 : DevRef τ sig)
      = out (V (main_arg0 : DevRef τ sig)) (V (main_arg1 : DevRef τ sig)) (V (main_arg2 : DevRef τ sig)) := by
  after_results_simp
  simp only [TRef.toBuf, TRef.ofBuf, cast_eq, id_eq]
  rfl

theorem arg0_eq (V : Valuation τ sig (Elt Ideal)) :
    after (ops (F := Ideal)) V (main_arg0 : DevRef τ sig) = V (main_arg0 : DevRef τ sig) := by
  after_results_simp

theorem arg1_eq (V : Valuation τ sig (Elt Ideal)) :
    after (ops (F := Ideal)) V (main_arg1 : DevRef τ sig) = V (main_arg1 : DevRef τ sig) := by
  after_results_simp

theorem arg2_eq (V : Valuation τ sig (Elt Ideal)) :
    after (ops (F := Ideal)) V (main_arg2 : DevRef τ sig) = V (main_arg2 : DevRef τ sig) := by
  after_results_simp

/-- On every device, from any memory with zero counters: every weakly fair execution of @main terminates with the
    result buffer at `out` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v14) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v14).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

/-! ## The composed term read at an index -/

/-- The gather's dimension numbers: row `start` of the table, all 512 columns, one row per (b, s). -/
abbrev gatherDims := gather_S2048x512_S32x2048x1_S32x2048x512_2_0_n_n_0_2_1512

/-- The gather of rows of a [2048, 512] table at start indices [32, 2048, 1], read at (b, s, d): the table at the row
    `idx (b, s, 0)` read signed and clamped into [0, 2047], column d. On the row axis the operand index is the clamped
    start alone (the axis is collapsed, so it takes no offset, and nothing is a batching axis); on the column axis it is
    the offset d alone (the start index map does not name the axis). -/
theorem gather_rows_apply {α : Type} {w : Nat} (x : S2048x512.Idx → α) (idx : IVec S32x2048x1 w)
    (b : Fin 32) (s : Fin 2048) (d : Fin 512) :
    Host.gather gatherDims x idx (ix3 b s d)
      = x (ix2 ⟨min (idx (ix3 b s (0 : Fin 1))).toInt.toNat 2047, by omega⟩ d) := by
  unfold Host.gather
  congr 1
  funext a
  refine Fin.ext ?_
  match a with
  | ⟨0, _⟩ =>
    show gatherDims.start (ix3 b s d) idx 0 + gatherDims.batchCoord (ix3 b s d) 0 + gatherDims.offCoord (ix3 b s d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gatherDims.startIndexMap from List.mem_singleton.mpr rfl)]
    have hsi : gatherDims.siIdx (ix3 b s d) ⟨List.idxOf (0 : Fin 2) gatherDims.startIndexMap,
        List.idxOf_lt_length_iff.2 (List.mem_singleton.mpr rfl)⟩ = ix3 b s (0 : Fin 1) := by
      funext c; refine Fin.ext ?_
      match c with
      | ⟨0, _⟩ => rfl
      | ⟨1, _⟩ => rfl
      | ⟨2, _⟩ => rfl
    rw [hsi]
    rfl
  | ⟨1, _⟩ =>
    show gatherDims.start (ix3 b s d) idx 1 + gatherDims.batchCoord (ix3 b s d) 1 + gatherDims.offCoord (ix3 b s d) 1 = d.val
    rw [GatherDims.batchCoord_eq_zero _ _ _ List.not_mem_nil]
    unfold GatherDims.start
    rw [dif_neg (show (1 : Fin 2) ∉ gatherDims.startIndexMap by decide)]
    unfold GatherDims.offCoord
    rw [dif_pos (show (1 : Fin 2) ∈ gatherDims.sKept by decide)]
    simp only [Nat.add_zero, Nat.zero_add]
    rfl

/-- The same, the row named by any number equal to the clamped start index. -/
theorem gather_rows_apply' {α : Type} {w : Nat} (x : S2048x512.Idx → α) (idx : IVec S32x2048x1 w)
    (b : Fin 32) (s : Fin 2048) (d : Fin 512) (r : Fin 2048)
    (hr : r.val = min (idx (ix3 b s (0 : Fin 1))).toInt.toNat 2047) :
    Host.gather gatherDims x idx (ix3 b s d) = x (ix2 r d) := by
  rw [gather_rows_apply]
  exact congrArg (fun q => x (ix2 q d)) (Fin.ext hr.symm)

/-- A [32, 2048] array given a unit third axis reads, at (b, s, 0), the array at (b, s). -/
theorem unitAxis_apply {α : Type} (x : S32x2048.Idx → α) (b : Fin 32) (s : Fin 2048) (z : Fin 1) :
    broadcastInDim S32x2048x1 ![0, 1] bcast_S32x2048_S32x2048x1_0_1 x (ix3 b s z) = x (ix2 b s) :=
  broadcastInDim_apply _ _ _ _ (ix2 b s) (fun a => match a with | ⟨0, _⟩ => rfl | ⟨1, _⟩ => rfl)

/-- A unit third axis broadcast along the 512 lanes reads, at (b, s, d), the array at (b, s, 0). -/
theorem lanes_apply {α : Type} (x : S32x2048x1.Idx → α) (b : Fin 32) (s : Fin 2048) (d : Fin 512) :
    broadcastInDim S32x2048x512 ![0, 1, 2] bcast_S32x2048x1_S32x2048x512_0_1_2 x (ix3 b s d) = x (ix3 b s (0 : Fin 1)) :=
  broadcastInDim_apply _ _ _ _ (ix3 b s (0 : Fin 1)) (fun a => match a with | ⟨0, _⟩ => rfl | ⟨1, _⟩ => rfl | ⟨2, _⟩ => rfl)

/-- The normalised row numbers at a position are the normalisation of the position's rank. -/
theorem rows_apply (mask : IVec S32x2048 1) (i : S32x2048.Idx) : rows mask i = gidx (Cert.PeSpec.rank mask i) := rfl

/-- THE RESULT READ AT (b, s, d): the sequence entry plus, where the mask is set, the table's row "normalised rank of
    (b, s), clamped into [0, 2047]" at column d, and plus zero elsewhere. -/
theorem out_apply (seqs : FVec Ideal S32x2048x512 .f32) (mask : IVec S32x2048 1) (pe : FVec Ideal S2048x512 .f32)
    (b : Fin 32) (s : Fin 2048) (d : Fin 512) :
    out seqs mask pe (ix3 b s d)
      = seqs (ix3 b s d) + (if mask (ix2 b s) = 1#1 then
          pe (ix2 ⟨min (gidx (Cert.PeSpec.rank mask (ix2 b s))).toInt.toNat 2047, by omega⟩ d) else 0) := by
  unfold out
  rw [addf_apply, select_apply, lanes_apply, unitAxis_apply]
  refine congrArg (fun z => seqs (ix3 b s d) + z) ?_
  unfold Scalar.select
  refine if_congr Iff.rfl ?_ ?_
  · exact gather_rows_apply' pe _ b s d _ (by rw [unitAxis_apply, rows_apply])
  · rw [broadcastInDim_scalar_apply, constant_apply, Ideal.ofBits_zero_f32]

end Cert.ReferenceIdeal.RefValue

end
-- ==== Proof.KIBridge.lean ====
/-
  The kernel's output array is the reference's result array, element by element, at the ideal instance.

  At sequence b, position s, lane d the kernel left: the sequence entry, plus the sum over 512 lanes of the one-hot
  weight of the relative-rank word against table block K, plus the same against table block K' with the word lowered
  by 512. With the host's values put in — the relative-rank word is the rank minus 512 K where the mask is set and the
  all-ones word where it is not, K is the floor of the tile's first rank over 512, K' is min(K + 1, 3), the converted
  table is the table itself at the ideal instance — the two sums select table row rank(b, s) where the mask is set
  and nothing where it is not: the reference's gathered row under its select. No finiteness is used: a zero weight
  annihilates every extended real, and a sum with one non-zero term is that term.
-/
import proofs.«129515_j39041252721255_2_alg».proof.Proof.KIFrame
import proofs.«129515_j39041252721255_2_alg».proof.Proof.KIValue
import proofs.«129515_j39041252721255_2_alg».proof.Proof.RefRun
import proofs.«129515_j39041252721255_2_alg».proof.Proof.Bridge

set_option maxRecDepth 16384

noncomputable section

namespace Cert.KernelIdeal.Fr

open Idealize.ShloMosaic Idealize.ShloMosaic.TcCoe Idealize.ShloMosaic.ValueIdx
open Idealize.SL Idealize.SL.Sem
open Idealize.ShloMosaic.Pipeline
open Cert.KernelIdeal Cert.KernelIdeal.Gen Cert.KernelIdeal.Hst

/-! ## The block numbers the table windows read, as table entries -/

section Words
variable (a : (pcfg0 (F := Ideal)).Adm)

theorem off_facts : ∀ t : Fin grid0.N, k0_off1 (grid0.coords t) = ![t.val / 4, t.val % 4] := by decide +kernel

/-- The table word the index maps read at point `t` is the table's entry at the point's coordinates. -/
theorem word_at (pf : pre0.Contents (Elt Ideal)) (t : Fin grid0.N) :
    pf.at 0 (Rect.unit (s := S32x4) (k0_off1 (grid0.coords t)) S1x1.size (k0_off1_inb (grid0.coords t))) numel1_S1x1
      = (pf 0 : S32x4.Idx → BitVec 32) (ix2 (⟨t.val / 4, by have := t.isLt; have := N_0; omega⟩ : Fin 32) (⟨t.val % 4, by omega⟩ : Fin 4)) := by
  show (pf 0 : S32x4.Idx → BitVec 32) _ = _
  refine congrArg (pf 0 : S32x4.Idx → BitVec 32) ?_
  funext x; apply Fin.ext
  have e := off_facts t
  match x with
  | ⟨0, _⟩ => show k0_off1 (grid0.coords t) (0 : Fin 2) + 1 * 0 = t.val / 4; rw [e]; simp
  | ⟨1, _⟩ => show k0_off1 (grid0.coords t) (1 : Fin 2) + 1 * 0 = t.val % 4; rw [e]; simp

/-- The coordinates of the point that handles position `s` of sequence `b`. -/
theorem pt_ix (b : Fin 32) (s : Fin 2048) :
    ix2 (⟨(ptOf a b s).val / 4, by have := (ptOf a b s).isLt; have := N128 a; omega⟩ : Fin 32) (⟨(ptOf a b s).val % 4, by omega⟩ : Fin 4)
      = ix2 b (⟨s.val / 512, by omega⟩ : Fin 4) := by
  funext x; apply Fin.ext
  match x with
  | ⟨0, _⟩ => show (4 * b.val + s.val / 512) / 4 = b.val; omega
  | ⟨1, _⟩ => show (4 * b.val + s.val / 512) % 4 = s.val / 512; omega

theorem kW_pt (b : Fin 32) (s : Fin 2048) :
    kW a (ptOf a b s) = ((a.1 0 : S32x4.Idx → BitVec 32) (ix2 b (⟨s.val / 512, by omega⟩ : Fin 4))).toNat := by
  show (a.1.at 0 (Rect.unit (s := S32x4) (k0_off1 (grid0.coords (ptOf a b s))) S1x1.size (k0_off1_inb (grid0.coords (ptOf a b s)))) numel1_S1x1).toNat = _
  rw [word_at, pt_ix]

theorem kW'_pt (b : Fin 32) (s : Fin 2048) :
    kW' a (ptOf a b s)
      = (Scalar.minsi (Scalar.addi ((a.1 0 : S32x4.Idx → BitVec 32) (ix2 b (⟨s.val / 512, by omega⟩ : Fin 4))) 1#32) 3#32).toNat := by
  show (Scalar.minsi (Scalar.addi (a.1.at 0 (Rect.unit (s := S32x4) (k0_off1 (grid0.coords (ptOf a b s))) S1x1.size (k0_off1_inb (grid0.coords (ptOf a b s)))) numel1_S1x1) 1#32) 3#32).toNat = _
  rw [word_at, pt_ix]

end Words

/-! ## The two sides -/

variable (m : (ℓ : Loc nD τ sig) → Buf (Elt Ideal) ℓ)

/-- The launched table on all natural rows: zero past its 2048 rows. -/
def peN (c : Dev nD) (r : ℕ) (d : Fin 512) : EReal :=
  if h : r < 2048 then (m ((c : Thread nD τ).loc main_arg2) : S2048x512.Idx → EReal) (ix2 (⟨r, h⟩ : Fin 2048) d) else 0

/-- The converted table is the table: a change of float format is the identity on the extended reals. -/
theorem tabN_eq (c : Dev nD) (r : ℕ) (d : Fin 512) : tabN (Hst.V m) c r d = peN m c r d := by
  unfold tabN peN
  rw [V_main_v17]
  rfl

/-- THE BRIDGE at one element. -/
theorem Gv_eq (c : Dev nD) (b : Fin 32) (s : Fin 2048) (d : Fin 512) :
    Gv (adm m) (Hst.V m) c b s d
      = Cert.ReferenceIdeal.RefValue.out (m ((c : Thread nD τ).loc main_arg0)) (m ((c : Thread nD τ).loc main_arg1))
          (m ((c : Thread nD τ).loc main_arg2)) (ix3 b s d) := by
  obtain rfl : c = 0 := Subsingleton.elim _ _
  rw [Cert.ReferenceIdeal.RefValue.out_apply]
  unfold Gv seqAt relAt
  rw [V_main_arg0, V_main_v16, relArr_apply]
  simp only [tabN_eq]
  rw [kW_pt, kW'_pt]
  have hk : ((adm m).1 0 : S32x4.Idx → BitVec 32) = kTab (m (((0 : Dev nD) : Thread nD τ).loc main_arg1)) := V_main_v8 m 0
  rw [hk, kTab_apply]
  refine congrArg (fun z : EReal => @HAdd.hAdd EReal EReal EReal _ _ z) ?_
  refine (Cert.PeSpec.gather_eq (m (((0 : Dev nD) : Thread nD τ).loc main_arg1)) (peN m 0) b s d).trans ?_
  refine if_congr Iff.rfl ?_ rfl
  unfold peN
  rw [dif_pos (by have := Nat.min_le_right (Cert.ReferenceIdeal.RefValue.gidx (Cert.PeSpec.rank (m (((0 : Dev nD) : Thread nD τ).loc main_arg1)) (ix2 b s))).toInt.toNat 2047; exact Nat.lt_succ_of_le this)]
  rfl

/-- THE BRIDGE: the kernel's output array is the reference's result array. -/
theorem Gout_eq (c : Dev nD) :
    Gout (adm m) (Hst.V m) c
      = Cert.ReferenceIdeal.RefValue.out (m ((c : Thread nD τ).loc main_arg0)) (m ((c : Thread nD τ).loc main_arg1))
          (m ((c : Thread nD τ).loc main_arg2)) := by
  funext i
  obtain ⟨b, s, d, rfl⟩ : ∃ (b : Fin 32) (s : Fin 2048) (d : Fin 512), i = ix3 b s d := ⟨i 0, i 1, i 2, eq_ix3 i⟩
  exact Gv_eq m c b s d

/-- The kernel's run, read: the result array ends at the reference's function of the launched arguments, and the
    arguments end as launched. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v18)
          = Cert.ReferenceIdeal.RefValue.out (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(((h c).1 4).trans (final4 (adm m) (Hst.V m) c)).trans (Gout_eq m c),
      ((h c).1 0).trans (((dats (adm m) (Hst.V m) 0 c).arrAt_in 0 rfl _).trans ((A_eq (adm m) (Hst.V m) c 0).trans (V_main_arg0 m c))),
      ((h c).2 main_arg1 (by decide : main_arg1 ∈ restRefs sig spec0)).trans (V_main_arg1 m c),
      ((h c).2 main_arg2 (by decide : main_arg2 ∈ restRefs sig spec0)).trans (V_main_arg2 m c)⟩) (run m ρ)

end Cert.KernelIdeal.Fr

end
-- ==== Proof.lean ====
/-
  The kernel adds, to every position of 32 sequences of 2048 positions and 512 lanes, a row of a 2048-row table —
  the row whose number is the position's RANK among the set positions of its sequence's mask — where the mask is set,
  and nothing where it is not. The reference computes the rank (a running count minus one, kept inside 0 … 2047),
  gathers the rows, selects under the mask and adds. The kernel computes the same rank on the host, cuts each sequence
  into 4 tiles of 512 positions, and per tile prefetches one block number K = (first rank of the tile) / 512; its body
  builds two one-hot matrices from the ranks relative to 512 K and multiplies them into table blocks K and
  min(K + 1, 3). Within a tile the rank grows by at most one per position, so the relative rank lies in 0 … 1022 and
  exactly one of the two one-hot rows picks the wanted table row; an unset position carries the all-ones word, which
  matches no lane. On the extended reals a zero weight annihilates every entry and a matrix product into a zero
  accumulator is the plain sum, so both programs end with the same array, element by element; no finiteness of the
  inputs is needed for that. The frames: each program runs to the end, faults nowhere and leaves its arguments
  unchanged — for the kernel because every prefetched block number is at most 3, so every table block lies inside
  the table; the same argument read at the word-level instance and at the ideal one. The ideal pass rewrote
  nothing, so the idealization claim has no conjunct.
-/
import proofs.«129515_j39041252721255_2_alg».proof.Defs
import proofs.«129515_j39041252721255_2_alg».proof.Proof.Gen.Kernel
import proofs.«129515_j39041252721255_2_alg».proof.Proof.Gen.KernelIdeal
import proofs.«129515_j39041252721255_2_alg».proof.Proof.Gen.ReferenceIdeal
import proofs.«129515_j39041252721255_2_alg».proof.Proof.Gen.Pre_finite_inputs
import proofs.«129515_j39041252721255_2_alg».proof.Proof.KFrame
import proofs.«129515_j39041252721255_2_alg».proof.Proof.KIFrame
import proofs.«129515_j39041252721255_2_alg».proof.Proof.KIBridge
import proofs.«129515_j39041252721255_2_alg».proof.Proof.RefRun
import Idealize.ShloMosaic.Adequacy
import Idealize.ShloMosaic.Init

noncomputable section

namespace Cert.Proof

open Idealize.ShloMosaic Idealize.SL.Sem

/-- The word-level kernel runs to the end and leaves its arguments unchanged. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.RefValue.run m ρ)

/-- The ideal pass rewrote no operation. -/
theorem preserves : Cert.preserves_Kernel_KernelIdeal := trivial

/-- From memories agreeing on the arguments both programs end with the reference's function of the arguments in
    their result arrays. -/
theorem algebraic : Cert.algebraic_KernelIdeal_ReferenceIdeal := by
  intro m ρ m' ρ' _ hagree
  refine ⟨_, Cert.KernelIdeal.Fr.kernel_run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
